-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x8 : Shape := ⟨2, ![500000, 8]⟩
abbrev S2x16000000 : Shape := ⟨2, ![2, 16000000]⟩
abbrev S16000000x8 : Shape := ⟨2, ![16000000, 8]⟩
abbrev S1 : Shape := ⟨1, ![1]⟩
abbrev S500000 : Shape := ⟨1, ![500000]⟩
abbrev S25x25 : Shape := ⟨2, ![25, 25]⟩
abbrev S25 : Shape := ⟨1, ![25]⟩
abbrev S25x8 : Shape := ⟨2, ![25, 8]⟩
abbrev S8 : Shape := ⟨1, ![8]⟩
abbrev S_ : Shape := ⟨0, ![]⟩

class Facts : Prop where
  bcast_S_S500000x8 : S_.BroadcastsInDim S500000x8 (![] : Fin 0 → Fin S500000x8.rank)
  reducesTo_S500000x8_S_d0_1 : S500000x8.ReducesTo [0, 1] S_
  h_S_ : 0 < S_.numel
  bcast_S_S16000000x8 : S_.BroadcastsInDim S16000000x8 (![] : Fin 0 → Fin S16000000x8.rank)
  reducesTo_S16000000x8_S_d0_1 : S16000000x8.ReducesTo [0, 1] S_
  bcast_S_S1 : S_.BroadcastsInDim S1 (![] : Fin 0 → Fin S1.rank)
  reducesTo_S1_S_d0 : S1.ReducesTo [0] S_
  bcast_S_S25x25 : S_.BroadcastsInDim S25x25 (![] : Fin 0 → Fin S25x25.rank)
  reducesTo_S25x25_S_d0_1 : S25x25.ReducesTo [0, 1] S_
  bcast_S_S25 : S_.BroadcastsInDim S25 (![] : Fin 0 → Fin S25.rank)
  reducesTo_S25_S_d0 : S25.ReducesTo [0] S_
  bcast_S_S25x8 : S_.BroadcastsInDim S25x8 (![] : Fin 0 → Fin S25x8.rank)
  reducesTo_S25x8_S_d0_1 : S25x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S25 .f32) (main_arg7 : FVec F S25x8 .f32) (main_arg8 : FVec F S8 .f32) (main_v13 : IVec S_ 1) (main_v16 : IVec S25x25 1) : IVec S_ 1 :=
  let main_c_5 : IVec S_ 1 := constantI S_ 1 1#1
  let main_v17 : IVec S_ 1 := (fun x v => Host.reduce IntOp.andi x v reducesTo_S25x25_S_d0_1 h_S_) main_v16 main_c_5
  let main_v18 : IVec S_ 1 := andi main_v13 main_v17
  let main_v19 : FVec F S25 .f32 := Host.absf main_arg6
  let main_cst_6 : FVec F S_ .f32 := constant S_ .f32 0x7F800000#32
  let main_v20 : FVec F S25 .f32 := broadcastInDim S25 ![] bcast_S_S25 main_cst_6
  let main_v21 : IVec S25 1 := cmpf .olt main_v19 main_v20
  let main_c_7 : IVec S_ 1 := constantI S_ 1 1#1
  let main_v22 : IVec S_ 1 := (fun x v => Host.reduce IntOp.andi x v reducesTo_S25_S_d0 h_S_) main_v21 main_c_7
  let main_v23 : IVec S_ 1 := andi main_v18 main_v22
  let main_v24 : FVec F S25x8 .f32 := Host.absf main_arg7
  let main_cst_8 : FVec F S_ .f32 := constant S_ .f32 0x7F800000#32
  let main_v25 : FVec F S25x8 .f32 := broadcastInDim S25x8 ![] bcast_S_S25x8 main_cst_8
  let main_v26 : IVec S25x8 1 := cmpf .olt main_v24 main_v25
  let main_c_9 : IVec S_ 1 := constantI S_ 1 1#1
  let main_v27 : IVec S_ 1 := (fun x v => Host.reduce IntOp.andi x v reducesTo_S25x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S500000x8 .f32) (main_arg1 : IVec S2x16000000 32) (main_arg2 : FVec F S16000000x8 .f32) (main_arg3 : FVec F S1 .f32) (main_arg4 : IVec S500000 32) (main_arg5 : FVec F S25x25 .f32) (main_arg6 : FVec F S25 .f32) (main_arg7 : FVec F S25x8 .f32) (main_arg8 : FVec F S8 .f32) : IVec S_ 1 :=
  let main_v0 : FVec F S500000x8 .f32 := Host.absf main_arg0
  let main_cst : FVec F S_ .f32 := constant S_ .f32 0x7F800000#32
  let main_v1 : FVec F S500000x8 .f32 := broadcastInDim S500000x8 ![] bcast_S_S500000x8 main_cst
  let main_v2 : IVec S500000x8 1 := cmpf .olt main_v0 main_v1
  let main_c : IVec S_ 1 := constantI S_ 1 1#1
  let main_v3 : IVec S_ 1 := (fun x v => Host.reduce IntOp.andi x v reducesTo_S500000x8_S_d0_1 h_S_) main_v2 main_c
  let main_v4 : FVec F S16000000x8 .f32 := Host.absf main_arg2
  let main_cst_0 : FVec F S_ .f32 := constant S_ .f32 0x7F800000#32
  let main_v5 : FVec F S16000000x8 .f32 := broadcastInDim S16000000x8 ![] bcast_S_S16000000x8 main_cst_0
  let main_v6 : IVec S16000000x8 1 := cmpf .olt main_v4 main_v5
  let main_c_1 : IVec S_ 1 := constantI S_ 1 1#1
  let main_v7 : IVec S_ 1 := (fun x v => Host.reduce IntOp.andi x v reducesTo_S16000000x8_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S25x25 .f32 := Host.absf main_arg5
  let main_cst_4 : FVec F S_ .f32 := constant S_ .f32 0x7F800000#32
  let main_v15 : FVec F S25x25 .f32 := broadcastInDim S25x25 ![] bcast_S_S25x25 main_cst_4
  let main_v16 : IVec S25x25 1 := cmpf .olt main_v14 main_v15
  fn_part1 (F := F) main_arg6 main_arg7 main_arg8 main_v13 main_v16
-- ==== Kernel.lean ====
abbrev S500000x8 : Shape := ⟨2, ![500000, 8]⟩
abbrev S2x16000000 : Shape := ⟨2, ![2, 16000000]⟩
abbrev S16000000x8 : Shape := ⟨2, ![16000000, 8]⟩
abbrev S1 : Shape := ⟨1, ![1]⟩
abbrev S500000 : Shape := ⟨1, ![500000]⟩
abbrev S25x25 : Shape := ⟨2, ![25, 25]⟩
abbrev S25 : Shape := ⟨1, ![25]⟩
abbrev S25x8 : Shape := ⟨2, ![25, 8]⟩
abbrev S8 : Shape := ⟨1, ![8]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S500000x16 : Shape := ⟨2, ![500000, 16]⟩
abbrev S500000x1 : Shape := ⟨2, ![500000, 1]⟩
abbrev S1x25 : Shape := ⟨2, ![1, 25]⟩
abbrev S1x8 : Shape := ⟨2, ![1, 8]⟩
abbrev S5000x8 : Shape := ⟨2, ![5000, 8]⟩
abbrev S5000x16 : Shape := ⟨2, ![5000, 16]⟩
abbrev S5000x1 : Shape := ⟨2, ![5000, 1]⟩
abbrev S8x25 : Shape := ⟨2, ![8, 25]⟩
abbrev S16x25 : Shape := ⟨2, ![16, 25]⟩
abbrev S5000x25 : Shape := ⟨2, ![5000, 25]⟩

abbrev nBuf : Space → Nat
  | .hbm => 47
  | .vmem => 12
  | .smem => 0
  | _ => 0

abbrev bufTy : (tb : Table) → Fin (tcTables nBuf tb) → BufTy
  | .hbm, ⟨0, _⟩ => ⟨S500000x8, .f32⟩
  | .hbm, ⟨1, _⟩ => ⟨S2x16000000, .i32⟩
  | .hbm, ⟨2, _⟩ => ⟨S16000000x8, .f32⟩
  | .hbm, ⟨3, _⟩ => ⟨S1, .f32⟩
  | .hbm, ⟨4, _⟩ => ⟨S500000, .i32⟩
  | .hbm, ⟨5, _⟩ => ⟨S25x25, .f32⟩
  | .hbm, ⟨6, _⟩ => ⟨S25, .f32⟩
  | .hbm, ⟨7, _⟩ => ⟨S25x8, .f32⟩
  | .hbm, ⟨8, _⟩ => ⟨S8, .f32⟩
  | .hbm, ⟨9, _⟩ => ⟨S1x16000000, .i32⟩
  | .hbm, ⟨10, _⟩ => ⟨S16000000, .i32⟩
  | .hbm, ⟨11, _⟩ => ⟨S1x16000000, .i32⟩
  | .hbm, ⟨12, _⟩ => ⟨S16000000, .i32⟩
  | .hbm, ⟨13, _⟩ => ⟨S_, .i32⟩
  | .hbm, ⟨14, _⟩ => ⟨S16000000, .i32⟩
  | .hbm, ⟨15, _⟩ => ⟨S16000000, .i1⟩
  | .hbm, ⟨16, _⟩ => ⟨S_, .i32⟩
  | .hbm, ⟨17, _⟩ => ⟨S16000000, .i32⟩
  | .hbm, ⟨18, _⟩ => ⟨S16000000, .i32⟩
  | .hbm, ⟨19, _⟩ => ⟨S16000000, .i32⟩
  | .hbm, ⟨20, _⟩ => ⟨S16000000x1, .i32⟩
  | .hbm, ⟨21, _⟩ => ⟨S16000000x8, .f32⟩
  | .hbm, ⟨22, _⟩ => ⟨S_, .f32⟩
  | .hbm, ⟨23, _⟩ => ⟨S500000x8, .f32⟩
  | .hbm, ⟨24, _⟩ => ⟨S16000000x1, .i32⟩
  | .hbm, ⟨25, _⟩ => ⟨S500000x8, .f32⟩
  | .hbm, ⟨26, _⟩ => ⟨S_, .f32⟩
  | .hbm, ⟨27, _⟩ => ⟨S500000x8, .f32⟩
  | .hbm, ⟨28, _⟩ => ⟨S16000000x1, .i32⟩
  | .hbm, ⟨29, _⟩ => ⟨S500000x8, .f32⟩
  | .hbm, ⟨30, _⟩ => ⟨S_, .f32⟩
  | .hbm, ⟨31, _⟩ => ⟨S16000000, .f32⟩
  | .hbm, ⟨32, _⟩ => ⟨S_, .f32⟩
  | .hbm, ⟨33, _⟩ => ⟨S500000, .f32⟩
  | .hbm, ⟨34, _⟩ => ⟨S16000000x1, .i32⟩
  | .hbm, ⟨35, _⟩ => ⟨S500000, .f32⟩
  | .hbm, ⟨36, _⟩ => ⟨S500000x16, .f32⟩
  | .hbm, ⟨37, _⟩ => ⟨S500000x1, .f32⟩
  | .hbm, ⟨38, _⟩ => ⟨S_, .f32⟩
  | .hbm, ⟨39, _⟩ => ⟨S1x25, .f32⟩
  | .hbm, ⟨40, _⟩ => ⟨S25, .f32⟩
  | .hbm, ⟨41, _⟩ => ⟨S25, .f32⟩
  | .hbm, ⟨42, _⟩ => ⟨S25, .f32⟩
  | .hbm, ⟨43, _⟩ => ⟨S25, .f32⟩
  | .hbm, ⟨44, _⟩ => ⟨S1x25, .f32⟩
  | .hbm, ⟨45, _⟩ => ⟨S1x8, .f32⟩
  | .hbm, ⟨46, _⟩ => ⟨S500000x8, .f32⟩
  | .local _ .vmem, ⟨0, _⟩ => ⟨S5000x8, .f32⟩
  | .local _ .vmem, ⟨1, _⟩ => ⟨S5000x8, .f32⟩
  | .local _ .vmem, ⟨2, _⟩ => ⟨S5000x16, .f32⟩
  | .local _ .vmem, ⟨3, _⟩ => ⟨S5000x16, .f32⟩
  | .local _ .vmem, ⟨4, _⟩ => ⟨S5000x1, .f32⟩
  | .local _ .vmem, ⟨5, _⟩ => ⟨S5000x1, .f32⟩
  | .local _ .vmem, ⟨6, _⟩ => ⟨S1x25, .f32⟩
  | .local _ .vmem, ⟨7, _⟩ => ⟨S25x25, .f32⟩
  | .local _ .vmem, ⟨8, _⟩ => ⟨S25x8, .f32⟩
  | .local _ .vmem, ⟨9, _⟩ => ⟨S1x8, .f32⟩
  | .local _ .vmem, ⟨10, _⟩ => ⟨S5000x8, .f32⟩
  | .local _ .vmem, ⟨11, _⟩ => ⟨S5000x8, .f32⟩
  | _, _ => ⟨S500000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x25 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S25x25 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S25x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000x8 : S_.BroadcastsInDim S500000x8 (![] : Fin 0 → Fin S500000x8.rank)
  bcast_S_S500000 : S_.BroadcastsInDim S500000 (![] : Fin 0 → Fin S500000.rank)
  concatenates_S500000x8_S500000x8_S500000x16_d1 : Shape.Concatenates [S500000x8, S500000x8] S500000x16 1
  bcast_S500000_S500000x1_0 : S500000.BroadcastsInDim S500000x1 (![0] : Fin 1 → Fin S500000x1.rank)
  shapeCasts_S1_S_ : S1.ShapeCasts S_
  slices_S25x25_S1x25_24_0 : S25x25.Slices ![24, 0] S1x25
  shapeCasts_S1x25_S25 : S1x25.ShapeCasts S25
  bcast_S_S25 : S_.BroadcastsInDim S25 (![] : Fin 0 → Fin S25.rank)
  shapeCasts_S25_S1x25 : S25.ShapeCasts S1x25
  shapeCasts_S8_S1x8 : S8.ShapeCasts S1x8
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S25x25_S25x25_0_0 : ∀ a, (![0, 0] : Fin 2 → Nat) a + S25x25.size a ≤ S25x25.size a
  h_S25x25 : 0 < S25x25.numel
  slices_S25x25_o0_0_S8x25 : S25x25.Slices ![0, 0] S8x25
  slices_S25x25_o8_0_S16x25 : S25x25.Slices ![8, 0] S16x25
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S5000x25 : S1x25.Broadcasts S5000x25
  inb_S25x8_S25x8_0_0 : ∀ a, (![0, 0] : Fin 2 → Nat) a + S25x8.size a ≤ S25x8.size a
  h_S25x8 : 0 < S25x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  gather_S500000x8_S16000000x1_S16000000x8_1_0_n_n_0_1_18_wf : GatherDims.WF S500000x8 S16000000x1 S16000000x8 [1] [0] [] [0] [] 1 ![1, 8]
  scatter_S500000x8_S16000000x1_S16000000x8_1_0_0_1_wf : ScatterDims.WF S500000x8 S16000000x1 S16000000x8 [1] [0] [0] 1
  scatter_S500000_S16000000x1_S16000000_n_0_0_1_wf : ScatterDims.WF S500000 S16000000x1 S16000000 [] [0] [0] 1
  dot_S5000x8_S8x25_S5000x25_1_0_0_1_n_n_wf : DotDims.WF S5000x8 S8x25 S5000x25 [1] [0] [0] [1] [] []
  dot_S5000x16_S16x25_S5000x25_1_0_0_1_n_n_wf : DotDims.WF S5000x16 S16x25 S5000x25 [1] [0] [0] [1] [] []
  dot_S5000x25_S25x8_S5000x8_1_0_0_1_n_n_wf : DotDims.WF S5000x25 S25x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S500000x8.size a
  hwx0_0 : ∀ i : grid0.Coords, EltTy.bits .f32 = 32 ∨ (Rect.block (s := S500000x8) S5000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S500000x16.size a
  hwx0_1 : ∀ i : grid0.Coords, EltTy.bits .f32 = 32 ∨ (Rect.block (s := S500000x16) S5000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S500000x1.size a
  hwx0_2 : ∀ i : grid0.Coords, EltTy.bits .f32 = 32 ∨ (Rect.block (s := S500000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x25.size a ≤ S1x25.size a
  hwx0_3 : ∀ i : grid0.Coords, EltTy.bits .f32 = 32 ∨ (Rect.block (s := S1x25) S1x25.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S25x25.size a ≤ S25x25.size a
  hwx0_4 : ∀ i : grid0.Coords, EltTy.bits .f32 = 32 ∨ (Rect.block (s := S25x25) S25x25.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S25x8.size a ≤ S25x8.size a
  hwx0_5 : ∀ i : grid0.Coords, EltTy.bits .f32 = 32 ∨ (Rect.block (s := S25x8) S25x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x8.size a ≤ S500000x8.size a
  hwx0_7 : ∀ i : grid0.Coords, EltTy.bits .f32 = 32 ∨ (Rect.block (s := S500000x8) S5000x8.size (cc0_transform_7 i) (hinb0_7 i)).WholeWords (EltTy.packing .f32)

variable [Facts₀]

def gather_S500000x8_S16000000x1_S16000000x8_1_0_n_n_0_1_18 : GatherDims S500000x8 S16000000x1 S16000000x8 where
  offsetDims := [1]
  collapsedSliceDims := [0]
  operandBatchingDims := []
  startIndicesBatchingDims := []
  startIndexMap := [0]
  indexVectorDim := 1
  sliceSizes := ![1, 8]
  wf := gather_S500000x8_S16000000x1_S16000000x8_1_0_n_n_0_1_18_wf
def scatter_S500000x8_S16000000x1_S16000000x8_1_0_0_1 : ScatterDims S500000x8 S16000000x1 S16000000x8 where
  updateWindowDims := [1]
  insertedWindowDims := [0]
  scatterDimsToOperandDims := [0]
  indexVectorDim := 1
  wf := scatter_S500000x8_S16000000x1_S16000000x8_1_0_0_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def dot_S5000x8_S8x25_S5000x25_1_0_0_1_n_n : DotDims S5000x8 S8x25 S5000x25 where
  lhsContracting := [1]
  rhsContracting := [0]
  lhsNonContracting := [0]
  rhsNonContracting := [1]
  lhsBatch := []
  rhsBatch := []
  wf := dot_S5000x8_S8x25_S5000x25_1_0_0_1_n_n_wf
def dot_S5000x16_S16x25_S5000x25_1_0_0_1_n_n : DotDims S5000x16 S16x25 S5000x25 where
  lhsContracting := [1]
  rhsContracting := [0]
  lhsNonContracting := [0]
  rhsNonContracting := [1]
  lhsBatch := []
  rhsBatch := []
  wf := dot_S5000x16_S16x25_S5000x25_1_0_0_1_n_n_wf
def dot_S5000x25_S25x8_S5000x8_1_0_0_1_n_n : DotDims S5000x25 S25x8 S5000x8 where
  lhsContracting := [1]
  rhsContracting := [0]
  lhsNonContracting := [0]
  rhsNonContracting := [1]
  lhsBatch := []
  rhsBatch := []
  wf := dot_S5000x25_S25x8_S5000x8_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x25.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S25x25.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S25x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S5000x8.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x8 : Shape := ⟨2, ![500000, 8]⟩
abbrev S2x16000000 : Shape := ⟨2, ![2, 16000000]⟩
abbrev S16000000x8 : Shape := ⟨2, ![16000000, 8]⟩
abbrev S1 : Shape := ⟨1, ![1]⟩
abbrev S500000 : Shape := ⟨1, ![500000]⟩
abbrev S25x25 : Shape := ⟨2, ![25, 25]⟩
abbrev S25 : Shape := ⟨1, ![25]⟩
abbrev S25x8 : Shape := ⟨2, ![25, 8]⟩
abbrev S8 : Shape := ⟨1, ![8]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S16000000x16 : Shape := ⟨2, ![16000000, 16]⟩
abbrev S500000x16 : Shape := ⟨2, ![500000, 16]⟩
abbrev S500000x1 : Shape := ⟨2, ![500000, 1]⟩
abbrev S1x1 : Shape := ⟨2, ![1, 1]⟩
abbrev S500000x25 : Shape := ⟨2, ![500000, 25]⟩
abbrev S1x25 : Shape := ⟨2, ![1, 25]⟩
abbrev S1x8 : Shape := ⟨2, ![1, 8]⟩

abbrev nBuf : Space → Nat
  | .hbm => 53
  | .vmem => 0
  | .smem => 0
  | _ => 0

abbrev bufTy : (tb : Table) → Fin (tcTables nBuf tb) → BufTy
  | .hbm, ⟨0, _⟩ => ⟨S500000x8, .f32⟩
  | .hbm, ⟨1, _⟩ => ⟨S2x16000000, .i32⟩
  | .hbm, ⟨2, _⟩ => ⟨S16000000x8, .f32⟩
  | .hbm, ⟨3, _⟩ => ⟨S1, .f32⟩
  | .hbm, ⟨4, _⟩ => ⟨S500000, .i32⟩
  | .hbm, ⟨5, _⟩ => ⟨S25x25, .f32⟩
  | .hbm, ⟨6, _⟩ => ⟨S25, .f32⟩
  | .hbm, ⟨7, _⟩ => ⟨S25x8, .f32⟩
  | .hbm, ⟨8, _⟩ => ⟨S8, .f32⟩
  | .hbm, ⟨9, _⟩ => ⟨S1x16000000, .i32⟩
  | .hbm, ⟨10, _⟩ => ⟨S16000000, .i32⟩
  | .hbm, ⟨11, _⟩ => ⟨S1x16000000, .i32⟩
  | .hbm, ⟨12, _⟩ => ⟨S16000000, .i32⟩
  | .hbm, ⟨13, _⟩ => ⟨S_, .i32⟩
  | .hbm, ⟨14, _⟩ => ⟨S16000000, .i32⟩
  | .hbm, ⟨15, _⟩ => ⟨S16000000, .i1⟩
  | .hbm, ⟨16, _⟩ => ⟨S_, .i32⟩
  | .hbm, ⟨17, _⟩ => ⟨S16000000, .i32⟩
  | .hbm, ⟨18, _⟩ => ⟨S16000000, .i32⟩
  | .hbm, ⟨19, _⟩ => ⟨S16000000, .i32⟩
  | .hbm, ⟨20, _⟩ => ⟨S16000000x1, .i32⟩
  | .hbm, ⟨21, _⟩ => ⟨S16000000x8, .f32⟩
  | .hbm, ⟨22, _⟩ => ⟨S16000000x16, .f32⟩
  | .hbm, ⟨23, _⟩ => ⟨S_, .f32⟩
  | .hbm, ⟨24, _⟩ => ⟨S500000x16, .f32⟩
  | .hbm, ⟨25, _⟩ => ⟨S16000000x1, .i32⟩
  | .hbm, ⟨26, _⟩ => ⟨S500000x16, .f32⟩
  | .hbm, ⟨27, _⟩ => ⟨S_, .f32⟩
  | .hbm, ⟨28, _⟩ => ⟨S16000000, .f32⟩
  | .hbm, ⟨29, _⟩ => ⟨S_, .f32⟩
  | .hbm, ⟨30, _⟩ => ⟨S500000, .f32⟩
  | .hbm, ⟨31, _⟩ => ⟨S16000000x1, .i32⟩
  | .hbm, ⟨32, _⟩ => ⟨S500000, .f32⟩
  | .hbm, ⟨33, _⟩ => ⟨S_, .f32⟩
  | .hbm, ⟨34, _⟩ => ⟨S500000, .f32⟩
  | .hbm, ⟨35, _⟩ => ⟨S500000, .f32⟩
  | .hbm, ⟨36, _⟩ => ⟨S500000x1, .f32⟩
  | .hbm, ⟨37, _⟩ => ⟨S500000x16, .f32⟩
  | .hbm, ⟨38, _⟩ => ⟨S500000x16, .f32⟩
  | .hbm, ⟨39, _⟩ => ⟨S1x1, .f32⟩
  | .hbm, ⟨40, _⟩ => ⟨S500000x1, .f32⟩
  | .hbm, ⟨41, _⟩ => ⟨S500000x25, .f32⟩
  | .hbm, ⟨42, _⟩ => ⟨S500000x25, .f32⟩
  | .hbm, ⟨43, _⟩ => ⟨S1x25, .f32⟩
  | .hbm, ⟨44, _⟩ => ⟨S500000x25, .f32⟩
  | .hbm, ⟨45, _⟩ => ⟨S500000x25, .f32⟩
  | .hbm, ⟨46, _⟩ => ⟨S_, .f32⟩
  | .hbm, ⟨47, _⟩ => ⟨S500000x25, .f32⟩
  | .hbm, ⟨48, _⟩ => ⟨S500000x25, .f32⟩
  | .hbm, ⟨49, _⟩ => ⟨S500000x8, .f32⟩
  | .hbm, ⟨50, _⟩ => ⟨S1x8, .f32⟩
  | .hbm, ⟨51, _⟩ => ⟨S500000x8, .f32⟩
  | .hbm, ⟨52, _⟩ => ⟨S500000x8, .f32⟩
  | _, _ => ⟨S500000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  concatenates_S16000000x8_S16000000x8_S16000000x16_d1 : Shape.Concatenates [S16000000x8, S16000000x8] S16000000x16 1
  bcast_S_S500000x16 : S_.BroadcastsInDim S500000x16 (![] : Fin 0 → Fin S500000x16.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x16_0_1 : S500000x1.BroadcastsInDim S500000x16 (![0, 1] : Fin 2 → Fin S500000x16.rank)
  shapeCasts_S1_S1x1 : S1.ShapeCasts S1x1
  bcast_S1x1_S500000x1_0_1 : S1x1.BroadcastsInDim S500000x1 (![0, 1] : Fin 2 → Fin S500000x1.rank)
  concatenates_S500000x8_S500000x16_S500000x1_S500000x25_d1 : Shape.Concatenates [S500000x8, S500000x16, S500000x1] S500000x25 1
  bcast_S25_S1x25_1 : S25.BroadcastsInDim S1x25 (![1] : Fin 1 → Fin S1x25.rank)
  bcast_S1x25_S500000x25_0_1 : S1x25.BroadcastsInDim S500000x25 (![0, 1] : Fin 2 → Fin S500000x25.rank)
  bcast_S_S500000x25 : S_.BroadcastsInDim S500000x25 (![] : Fin 0 → Fin S500000x25.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  gather_S500000x8_S16000000x1_S16000000x8_1_0_n_n_0_1_18_wf : GatherDims.WF S500000x8 S16000000x1 S16000000x8 [1] [0] [] [0] [] 1 ![1, 8]
  scatter_S500000x16_S16000000x1_S16000000x16_1_0_0_1_wf : ScatterDims.WF S500000x16 S16000000x1 S16000000x16 [1] [0] [0] 1
  scatter_S500000_S16000000x1_S16000000_n_0_0_1_wf : ScatterDims.WF S500000 S16000000x1 S16000000 [] [0] [0] 1
  dot_S500000x25_S25x25_S500000x25_1_0_0_1_n_n_wf : DotDims.WF S500000x25 S25x25 S500000x25 [1] [0] [0] [1] [] []
  dot_S500000x25_S25x8_S500000x8_1_0_0_1_n_n_wf : DotDims.WF S500000x25 S25x8 S500000x8 [1] [0] [0] [1] [] []

variable [Facts₀]

def gather_S500000x8_S16000000x1_S16000000x8_1_0_n_n_0_1_18 : GatherDims S500000x8 S16000000x1 S16000000x8 where
  offsetDims := [1]
  collapsedSliceDims := [0]
  operandBatchingDims := []
  startIndicesBatchingDims := []
  startIndexMap := [0]
  indexVectorDim := 1
  sliceSizes := ![1, 8]
  wf := gather_S500000x8_S16000000x1_S16000000x8_1_0_n_n_0_1_18_wf
def scatter_S500000x16_S16000000x1_S16000000x16_1_0_0_1 : ScatterDims S500000x16 S16000000x1 S16000000x16 where
  updateWindowDims := [1]
  insertedWindowDims := [0]
  scatterDimsToOperandDims := [0]
  indexVectorDim := 1
  wf := scatter_S500000x16_S16000000x1_S16000000x16_1_0_0_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def dot_S500000x25_S25x25_S500000x25_1_0_0_1_n_n : DotDims S500000x25 S25x25 S500000x25 where
  lhsContracting := [1]
  rhsContracting := [0]
  lhsNonContracting := [0]
  rhsNonContracting := [1]
  lhsBatch := []
  rhsBatch := []
  wf := dot_S500000x25_S25x25_S500000x25_1_0_0_1_n_n_wf
def dot_S500000x25_S25x8_S500000x8_1_0_0_1_n_n : DotDims S500000x25 S25x8 S500000x8 where
  lhsContracting := [1]
  rhsContracting := [0]
  lhsNonContracting := [0]
  rhsNonContracting := [1]
  lhsBatch := []
  rhsBatch := []
  wf := dot_S500000x25_S25x8_S500000x8_1_0_0_1_n_n_wf

class Facts : Prop extends Facts₀ where

variable [Facts]
-- ==== Proof.Spec.lean ====
/-
  The node update of one message-passing layer, as ONE function of its arrays, index by index, on the extended reals.

  For node n (of 500000) and output feature o (of 8):
    mean n b   = summed (n, b) / max (cnt n) 1            -- the mean of the 16 message features arriving at n
                                                            -- (their sum over the number of arrivals, taken as at least one)
    feat n     = [ x (n, 0..7) , mean n 0..15 , u 0 ]      -- 25 features: the node's own, the mean message, the global one
    hidden n k = (∑ c < 25, feat n c · W1 (c, k)) + b1 k
    out (n, o) = (∑ k < 25, max (hidden n k) 0 · W2 (k, o)) + b2 o
  `coreAt` spells this. `kernelAt` spells the same value the way a blocked kernel computes it: the product with W1 taken
  separately over the node's own 8 features (rows 0..7 of W1) and over the 16 mean features (rows 8..23), and the global
  feature's term u 0 · W1 (24, k) folded, with b1 k, into one bias row. The two agree (`kernelAt_eq_coreAt`): a sum over 25
  indices is the sum over its first 8, its next 16 and its last one, and + on the extended reals is associative and
  commutative (also at the infinities), so no finiteness is needed.
-/
import Idealize.ShloMosaic.PureOps.Ideal
import Idealize.ShloMosaic.PureOps.Ideal.Laws
import Idealize.ShloMosaic.Lib.ValueIdx

noncomputable section

namespace Cert.NodeUpdate

open Idealize.ShloMosaic Idealize.ShloMosaic.ValueIdx

abbrev ANx8 : Type := (⟨2, ![500000, 8]⟩ : Shape).Idx → EReal
abbrev ANx16 : Type := (⟨2, ![500000, 16]⟩ : Shape).Idx → EReal
abbrev ANx1 : Type := (⟨2, ![500000, 1]⟩ : Shape).Idx → EReal
abbrev AN : Type := (⟨1, ![500000]⟩ : Shape).Idx → EReal
abbrev A1 : Type := (⟨1, ![1]⟩ : Shape).Idx → EReal
abbrev A25x25 : Type := (⟨2, ![25, 25]⟩ : Shape).Idx → EReal
abbrev A25 : Type := (⟨1, ![25]⟩ : Shape).Idx → EReal
abbrev A1x25 : Type := (⟨2, ![1, 25]⟩ : Shape).Idx → EReal
abbrev A25x8 : Type := (⟨2, ![25, 8]⟩ : Shape).Idx → EReal
abbrev A8 : Type := (⟨1, ![8]⟩ : Shape).Idx → EReal
abbrev A1x8 : Type := (⟨2, ![1, 8]⟩ : Shape).Idx → EReal

/-- The float 1.0 and the float 0.0, as the programs write them. -/
abbrev one : EReal := Ideal.ofBits .f32 0x3F800000#32
abbrev zero : EReal := Ideal.ofBits .f32 0x00000000#32

/-- Mean message feature b at node n: the summed messages over the number of arrivals, the number taken as at least one. -/
def mean (summed : ANx16) (cnt : AN) (n : Fin 500000) (b : Fin 16) : EReal :=
  Ideal.div (summed (ix2 n b)) (max (cnt (ix1 n)) one)

/-- Node n's 25 input features: its own 8, the 16 mean message features, the global feature. -/
def feat (x : ANx8) (summed : ANx16) (cnt : AN) (u : A1) (n : Fin 500000) (c : Fin 25) : EReal :=
  if h : c.val < 8 then x (ix2 n ⟨c.val, h⟩)
  else if h2 : c.val < 24 then mean summed cnt n ⟨c.val - 8, by omega⟩
  else u (ix1 0)

/-- The first linear layer at node n, hidden unit k. -/
def hidden (x : ANx8) (summed : ANx16) (cnt : AN) (u : A1) (W1 : A25x25) (b1 : A25) (n : Fin 500000) (k : Fin 25) : EReal :=
  (∑ c : Fin 25, feat x summed cnt u n c * W1 (ix2 c k)) + b1 (ix1 k)

/-- The node update at node n, output feature o. -/
def coreAt (x : ANx8) (summed : ANx16) (cnt : AN) (u : A1) (W1 : A25x25) (b1 : A25) (W2 : A25x8) (b2 : A8)
    (n : Fin 500000) (o : Fin 8) : EReal :=
  (∑ k : Fin 25, max (hidden x summed cnt u W1 b1 n k) zero * W2 (ix2 k o)) + b2 (ix1 o)

/-- The node update as an array. -/
def core (x : ANx8) (summed : ANx16) (cnt : AN) (u : A1) (W1 : A25x25) (b1 : A25) (W2 : A25x8) (b2 : A8) : ANx8 :=
  fun i => coreAt x summed cnt u W1 b1 W2 b2 (i 0) (i 1)

/-- The first layer as a blocked kernel computes it: the node's own features against rows 0..7 of W1, the mean message
    features against rows 8..23, and one bias row `bias` (which is to hold b1 k + u 0 · W1 (24, k)). The count comes as a
    one-column array. -/
def kHidden (x : ANx8) (summed : ANx16) (cnt1 : ANx1) (bias : A1x25) (W1 : A25x25) (n : Fin 500000) (k : Fin 25) : EReal :=
  ((∑ a : Fin 8, x (ix2 n a) * W1 (ix2 (⟨a.val, by omega⟩ : Fin 25) k))
    + (∑ b : Fin 16, Ideal.div (summed (ix2 n b)) (max (cnt1 (ix2 n (0 : Fin 1))) one) * W1 (ix2 (⟨8 + b.val, by omega⟩ : Fin 25) k)))
    + bias (ix2 (0 : Fin 1) k)

/-- The node update as a blocked kernel computes it. -/
def kernelAt (x : ANx8) (summed : ANx16) (cnt1 : ANx1) (bias : A1x25) (W1 : A25x25) (W2 : A25x8) (b2r : A1x8)
    (n : Fin 500000) (o : Fin 8) : EReal :=
  (∑ k : Fin 25, max (kHidden x summed cnt1 bias W1 n k) zero * W2 (ix2 k o)) + b2r (ix2 (0 : Fin 1) o)

def kernelOut (x : ANx8) (summed : ANx16) (cnt1 : ANx1) (bias : A1x25) (W1 : A25x25) (W2 : A25x8) (b2r : A1x8) : ANx8 :=
  fun i => kernelAt x summed cnt1 bias W1 W2 b2r (i 0) (i 1)

/-- A sum over 25 indices: its first 8, its next 16, its last. -/
theorem sum25_split (f : Fin 25 → EReal) :
    ∑ c : Fin 25, f c = ((∑ a : Fin 8, f ⟨a.val, by omega⟩) + (∑ b : Fin 16, f ⟨8 + b.val, by omega⟩)) + f ⟨24, by omega⟩ := by
  rw [Fin.sum_univ_castSucc (n := 24) f]
  congr 1
  exact Fin.sum_univ_add (a := 8) (b := 16) (fun c : Fin (8 + 16) => f (Fin.castSucc c))

/-- The two spellings of the first layer agree, when the bias row holds b1 k + u 0 · W1 (24, k) and the one-column count
    is the count. -/
theorem kHidden_eq_hidden (x : ANx8) (summed : ANx16) (cnt : AN) (u : A1) (W1 : A25x25) (b1 : A25) (cnt1 : ANx1) (bias : A1x25)
    (hc : ∀ n : Fin 500000, cnt1 (ix2 n (0 : Fin 1)) = cnt (ix1 n))
    (hb : ∀ k : Fin 25, bias (ix2 (0 : Fin 1) k) = b1 (ix1 k) + u (ix1 0) * W1 (ix2 (⟨24, by omega⟩ : Fin 25) k))
    (n : Fin 500000) (k : Fin 25) :
    kHidden x summed cnt1 bias W1 n k = hidden x summed cnt u W1 b1 n k := by
  unfold kHidden hidden
  rw [sum25_split, hb k, hc n]
  have e8 : ∀ a : Fin 8, feat x summed cnt u n ⟨a.val, by omega⟩ = x (ix2 n a) := fun a => by
    unfold feat; rw [dif_pos (show (⟨a.val, by omega⟩ : Fin 25).val < 8 from a.isLt)]
  have e16 : ∀ b : Fin 16, feat x summed cnt u n ⟨8 + b.val, by omega⟩ = Ideal.div (summed (ix2 n b)) (max (cnt (ix1 n)) one) := fun b => by
    unfold feat
    have hb8 : ¬ (⟨8 + b.val, by omega⟩ : Fin 25).val < 8 := by show ¬ 8 + b.val < 8; omega
    have hb24 : (⟨8 + b.val, by omega⟩ : Fin 25).val < 24 := by have := b.isLt; show 8 + b.val < 24; omega
    rw [dif_neg hb8, dif_pos hb24]
    unfold mean
    have : (⟨(⟨8 + b.val, by omega⟩ : Fin 25).val - 8, by have := b.isLt; show 8 + b.val - 8 < 16; omega⟩ : Fin 16) = b :=
      Fin.ext (by show 8 + b.val - 8 = b.val; omega)
    rw [this]
  have e24 : feat x summed cnt u n ⟨24, by omega⟩ = u (ix1 0) := by
    unfold feat
    rw [dif_neg (show ¬ (⟨24, by omega⟩ : Fin 25).val < 8 from by show ¬ 24 < 8; omega),
      dif_neg (show ¬ (⟨24, by omega⟩ : Fin 25).val < 24 from by show ¬ 24 < 24; omega)]
  simp only [e8, e16, e24]
  -- ((A + B) + (b1 + uW)) = ((A + B) + uW) + b1
  rw [add_comm (b1 (ix1 k)) (u (ix1 0) * W1 _)]
  exact (add_assoc _ _ _).symm

/-- The two spellings of the node update agree. -/
theorem kernelAt_eq_coreAt (x : ANx8) (summed : ANx16) (cnt : AN) (u : A1) (W1 : A25x25) (b1 : A25) (W2 : A25x8) (b2 : A8)
    (cnt1 : ANx1) (bias : A1x25) (b2r : A1x8)
    (hc : ∀ n : Fin 500000, cnt1 (ix2 n (0 : Fin 1)) = cnt (ix1 n))
    (hb : ∀ k : Fin 25, bias (ix2 (0 : Fin 1) k) = b1 (ix1 k) + u (ix1 0) * W1 (ix2 (⟨24, by omega⟩ : Fin 25) k))
    (h2 : ∀ o : Fin 8, b2r (ix2 (0 : Fin 1) o) = b2 (ix1 o))
    (n : Fin 500000) (o : Fin 8) :
    kernelAt x summed cnt1 bias W1 W2 b2r n o = coreAt x summed cnt u W1 b1 W2 b2 n o := by
  unfold kernelAt coreAt
  rw [h2 o]
  simp only [kHidden_eq_hidden x summed cnt u W1 b1 cnt1 bias hc hb]

theorem kernelOut_eq_core (x : ANx8) (summed : ANx16) (cnt : AN) (u : A1) (W1 : A25x25) (b1 : A25) (W2 : A25x8) (b2 : A8)
    (cnt1 : ANx1) (bias : A1x25) (b2r : A1x8)
    (hc : ∀ n : Fin 500000, cnt1 (ix2 n (0 : Fin 1)) = cnt (ix1 n))
    (hb : ∀ k : Fin 25, bias (ix2 (0 : Fin 1) k) = b1 (ix1 k) + u (ix1 0) * W1 (ix2 (⟨24, by omega⟩ : Fin 25) k))
    (h2 : ∀ o : Fin 8, b2r (ix2 (0 : Fin 1) o) = b2 (ix1 o)) :
    kernelOut x summed cnt1 bias W1 W2 b2r = core x summed cnt u W1 b1 W2 b2 :=
  funext fun i => kernelAt_eq_coreAt x summed cnt u W1 b1 W2 b2 cnt1 bias b2r hc hb h2 (i 0) (i 1)

end Cert.NodeUpdate

end
-- ==== Proof.KPayload.lean ====
/-
  The kernel body's one stored value, read at an index of its [5000, 8] block.

  The body loads a block of 5000 nodes — their features x (8 columns), their summed messages (16 columns) and their arrival
  counts (one column) — and the whole of the bias row, of W1, of W2 and of the output bias row. It stores, at row p and
  column o,
      (∑ k < 25, max (((∑ a < 8, x (p,a) · W1 (a,k)) + (∑ b < 16, (summed (p,b) / max (cnt (p,0)) 1) · W1 (8+b,k))) + bias (0,k)) 0 · W2 (k,o))
        + b2 (0,o):
  each of its three matrix products starts from a zero accumulator, so it is the plain sum of products over its one
  contracted axis; the roundings to bf16 on the way into the products are the identity on the extended reals; the slices
  of W1 are its rows 0..7 and 8..23; the broadcasts repeat a one-row or one-column operand.
-/
import proofs.«154105_j19894288515268_2_alg».proof.Proof.Gen.KernelIdeal.Skeleton
import proofs.«154105_j19894288515268_2_alg».proof.Proof.Spec
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx
open Cert.NodeUpdate (one zero)

/-! ## The three matrix products, each a sum over its contracted axis -/

abbrev dotX := dot_S5000x8_S8x25_S5000x25_1_0_0_1_n_n
abbrev dotM := dot_S5000x16_S16x25_S5000x25_1_0_0_1_n_n
abbrev dotH := dot_S5000x25_S25x8_S5000x8_1_0_0_1_n_n

/-- The node features against rows of W1: 8 products. -/
theorem matmulX_apply (l : FVec Ideal S5000x8 .bf16) (r : FVec Ideal S8x25 .bf16) (p : Fin 5000) (k : Fin 25) :
    matmul dotX none l r (constant S5000x25 .f32 0x00000000#32) (ix2 p k) = ∑ a : Fin 8, l (ix2 p a) * r (ix2 a k) := by
  simp only [matmul]
  rw [Ideal.matmul_constant_zero_apply, ← Equiv.sum_comp (contrEquiv1 dotX 8 rfl rfl).symm]
  refine Finset.sum_congr rfl fun a _ => ?_
  have ha := contrEquiv1_symm_val dotX 8 rfl rfl a
  have el : dotX.lhsIdx (ix2 p k) ((contrEquiv1 dotX 8 rfl rfl).symm a) = ix2 p a := funext fun d => Fin.ext (by
    match d with
    | ⟨0, _⟩ =>
      show (dotX.lhsIdx (ix2 p k) _ 0).val = p.val
      unfold DotDims.lhsIdx
      rw [dif_neg (show ¬(0 : Fin S5000x8.rank) ∈ dotX.lhsBatch by decide), dif_pos (show (0 : Fin S5000x8.rank) ∈ dotX.lhsNonContracting by decide)]
      rfl
    | ⟨1, _⟩ => exact (dotX.lhsIdx_val_of_single rfl _ _).trans ha)
  have er : dotX.rhsIdx (ix2 p k) ((contrEquiv1 dotX 8 rfl rfl).symm a) = ix2 a k := funext fun d => Fin.ext (by
    match d with
    | ⟨0, _⟩ => exact (dotX.rhsIdx_val_of_single rfl _ _).trans ha
    | ⟨1, _⟩ =>
      show (dotX.rhsIdx (ix2 p k) _ 1).val = k.val
      unfold DotDims.rhsIdx
      rw [dif_neg (show ¬(1 : Fin S8x25.rank) ∈ dotX.rhsBatch by decide), dif_pos (show (1 : Fin S8x25.rank) ∈ dotX.rhsNonContracting by decide)]
      rfl)
  rw [el, er]

/-- The mean message features against rows of W1: 16 products. -/
theorem matmulM_apply (l : FVec Ideal S5000x16 .bf16) (r : FVec Ideal S16x25 .bf16) (p : Fin 5000) (k : Fin 25) :
    matmul dotM none l r (constant S5000x25 .f32 0x00000000#32) (ix2 p k) = ∑ b : Fin 16, l (ix2 p b) * r (ix2 b k) := by
  simp only [matmul]
  rw [Ideal.matmul_constant_zero_apply, ← Equiv.sum_comp (contrEquiv1 dotM 16 rfl rfl).symm]
  refine Finset.sum_congr rfl fun a _ => ?_
  have ha := contrEquiv1_symm_val dotM 16 rfl rfl a
  have el : dotM.lhsIdx (ix2 p k) ((contrEquiv1 dotM 16 rfl rfl).symm a) = ix2 p a := funext fun d => Fin.ext (by
    match d with
    | ⟨0, _⟩ =>
      show (dotM.lhsIdx (ix2 p k) _ 0).val = p.val
      unfold DotDims.lhsIdx
      rw [dif_neg (show ¬(0 : Fin S5000x16.rank) ∈ dotM.lhsBatch by decide), dif_pos (show (0 : Fin S5000x16.rank) ∈ dotM.lhsNonContracting by decide)]
      rfl
    | ⟨1, _⟩ => exact (dotM.lhsIdx_val_of_single rfl _ _).trans ha)
  have er : dotM.rhsIdx (ix2 p k) ((contrEquiv1 dotM 16 rfl rfl).symm a) = ix2 a k := funext fun d => Fin.ext (by
    match d with
    | ⟨0, _⟩ => exact (dotM.rhsIdx_val_of_single rfl _ _).trans ha
    | ⟨1, _⟩ =>
      show (dotM.rhsIdx (ix2 p k) _ 1).val = k.val
      unfold DotDims.rhsIdx
      rw [dif_neg (show ¬(1 : Fin S16x25.rank) ∈ dotM.rhsBatch by decide), dif_pos (show (1 : Fin S16x25.rank) ∈ dotM.rhsNonContracting by decide)]
      rfl)
  rw [el, er]

/-- The hidden units against W2: 25 products. -/
theorem matmulH_apply (l : FVec Ideal S5000x25 .bf16) (r : FVec Ideal S25x8 .bf16) (p : Fin 5000) (o : Fin 8) :
    matmul dotH none l r (constant S5000x8 .f32 0x00000000#32) (ix2 p o) = ∑ k : Fin 25, l (ix2 p k) * r (ix2 k o) := by
  simp only [matmul]
  rw [Ideal.matmul_constant_zero_apply, ← Equiv.sum_comp (contrEquiv1 dotH 25 rfl rfl).symm]
  refine Finset.sum_congr rfl fun a _ => ?_
  have ha := contrEquiv1_symm_val dotH 25 rfl rfl a
  have el : dotH.lhsIdx (ix2 p o) ((contrEquiv1 dotH 25 rfl rfl).symm a) = ix2 p a := funext fun d => Fin.ext (by
    match d with
    | ⟨0, _⟩ =>
      show (dotH.lhsIdx (ix2 p o) _ 0).val = p.val
      unfold DotDims.lhsIdx
      rw [dif_neg (show ¬(0 : Fin S5000x25.rank) ∈ dotH.lhsBatch by decide), dif_pos (show (0 : Fin S5000x25.rank) ∈ dotH.lhsNonContracting by decide)]
      rfl
    | ⟨1, _⟩ => exact (dotH.lhsIdx_val_of_single rfl _ _).trans ha)
  have er : dotH.rhsIdx (ix2 p o) ((contrEquiv1 dotH 25 rfl rfl).symm a) = ix2 a o := funext fun d => Fin.ext (by
    match d with
    | ⟨0, _⟩ => exact (dotH.rhsIdx_val_of_single rfl _ _).trans ha
    | ⟨1, _⟩ =>
      show (dotH.rhsIdx (ix2 p o) _ 1).val = o.val
      unfold DotDims.rhsIdx
      rw [dif_neg (show ¬(1 : Fin S25x8.rank) ∈ dotH.rhsBatch by decide), dif_pos (show (1 : Fin S25x8.rank) ∈ dotH.rhsNonContracting by decide)]
      rfl)
  rw [el, er]

/-! ## The layout operations, read at an index -/

/-- Rows 0..7 of W1. -/
theorem sliceTop_apply (w : FVec Ideal S25x25 .f32) (a : Fin 8) (k : Fin 25) :
    extractStridedSlice S8x25 ![0, 0] w slices_S25x25_o0_0_S8x25 (ix2 a k) = w (ix2 (⟨a.val, by omega⟩ : Fin 25) k) :=
  extractStridedSlice_apply ![0, 0] w slices_S25x25_o0_0_S8x25 (ix2 a k) (ix2 (⟨a.val, by omega⟩ : Fin 25) k) (fun d => by
    match d with
    | ⟨0, _⟩ => show a.val = 0 + a.val; omega
    | ⟨1, _⟩ => show k.val = 0 + k.val; omega)

/-- Rows 8..23 of W1. -/
theorem sliceMid_apply (w : FVec Ideal S25x25 .f32) (b : Fin 16) (k : Fin 25) :
    extractStridedSlice S16x25 ![8, 0] w slices_S25x25_o8_0_S16x25 (ix2 b k) = w (ix2 (⟨8 + b.val, by omega⟩ : Fin 25) k) :=
  extractStridedSlice_apply ![8, 0] w slices_S25x25_o8_0_S16x25 (ix2 b k) (ix2 (⟨8 + b.val, by omega⟩ : Fin 25) k) (fun d => by
    match d with
    | ⟨0, _⟩ => show 8 + b.val = 8 + b.val; rfl
    | ⟨1, _⟩ => show k.val = 0 + k.val; omega)

/-- The one-column count, repeated along the 16 message columns. -/
theorem bcastCol_apply (v : FVec Ideal S5000x1 .f32) (p : Fin 5000) (b : Fin 16) :
    broadcastTo S5000x16 v broadcasts_S5000x1_S5000x16 (ix2 p b) = v (ix2 p (0 : Fin 1)) :=
  broadcastTo_apply v broadcasts_S5000x1_S5000x16 (ix2 p b) (ix2 p (0 : Fin 1)) (fun d => by
    match d with
    | ⟨0, _⟩ => show p.val = if (5000 : Nat) = 1 then 0 else p.val; rw [if_neg (by decide)]
    | ⟨1, _⟩ => show 0 = if (1 : Nat) = 1 then 0 else b.val; rw [if_pos rfl])

/-- The bias row, repeated along the 5000 rows. -/
theorem bcastRow25_apply (v : FVec Ideal S1x25 .f32) (p : Fin 5000) (k : Fin 25) :
    broadcastTo S5000x25 v broadcasts_S1x25_S5000x25 (ix2 p k) = v (ix2 (0 : Fin 1) k) :=
  broadcastTo_apply v broadcasts_S1x25_S5000x25 (ix2 p k) (ix2 (0 : Fin 1) k) (fun d => by
    match d with
    | ⟨0, _⟩ => show 0 = if (1 : Nat) = 1 then 0 else p.val; rw [if_pos rfl]
    | ⟨1, _⟩ => show k.val = if (25 : Nat) = 1 then 0 else k.val; rw [if_neg (by decide)])

/-- The output bias row, repeated along the 5000 rows. -/
theorem bcastRow8_apply (v : FVec Ideal S1x8 .f32) (p : Fin 5000) (o : Fin 8) :
    broadcastTo S5000x8 v broadcasts_S1x8_S5000x8 (ix2 p o) = v (ix2 (0 : Fin 1) o) :=
  broadcastTo_apply v broadcasts_S1x8_S5000x8 (ix2 p o) (ix2 (0 : Fin 1) o) (fun d => by
    match d with
    | ⟨0, _⟩ => show 0 = if (1 : Nat) = 1 then 0 else p.val; rw [if_pos rfl]
    | ⟨1, _⟩ => show o.val = if (8 : Nat) = 1 then 0 else o.val; rw [if_neg (by decide)])

/-! ## The stored value at an index -/

/-- The first layer at row p, hidden unit k, of the loaded blocks. -/
def blockHidden (x : Vec Ideal S5000x8 .f32) (s : Vec Ideal S5000x16 .f32) (c : Vec Ideal S5000x1 .f32) (w1 : Vec Ideal S25x25 .f32)
    (bias : Vec Ideal S1x25 .f32) (p : Fin 5000) (k : Fin 25) : EReal :=
  ((∑ a : Fin 8, x (ix2 p a) * w1 (ix2 (⟨a.val, by omega⟩ : Fin 25) k))
    + (∑ b : Fin 16, Ideal.div (s (ix2 p b)) (max (c (ix2 p (0 : Fin 1))) one) * w1 (ix2 (⟨8 + b.val, by omega⟩ : Fin 25) k)))
    + bias (ix2 (0 : Fin 1) k)

/-- The stored value at row p, column o, of the loaded blocks. -/
def blockOut (x : Vec Ideal S5000x8 .f32) (s : Vec Ideal S5000x16 .f32) (c : Vec Ideal S5000x1 .f32) (w1 : Vec Ideal S25x25 .f32)
    (bias : Vec Ideal S1x25 .f32) (w2 : Vec Ideal S25x8 .f32) (b2 : Vec Ideal S1x8 .f32) (p : Fin 5000) (o : Fin 8) : EReal :=
  (∑ k : Fin 25, max (blockHidden x s c w1 bias p k) zero * w2 (ix2 k o)) + b2 (ix2 (0 : Fin 1) o)

theorem pay_apply (x : Vec Ideal S5000x8 .f32) (s : Vec Ideal S5000x16 .f32) (c : Vec Ideal S5000x1 .f32) (w1 : Vec Ideal S25x25 .f32)
    (bias : Vec Ideal S1x25 .f32) (w2 : Vec Ideal S25x8 .f32) (b2 : Vec Ideal S1x8 .f32) (p : Fin 5000) (o : Fin 8) :
    k0_pay1 (F := Ideal) x s c w1 bias w2 b2 (ix2 p o) = blockOut x s c w1 bias w2 b2 p o := by
  unfold k0_pay1 blockOut blockHidden
  simp only [addf_apply, matmulH_apply, matmulX_apply, matmulM_apply, truncf_apply, maximumf_apply, divf_apply, broadcast_apply,
    shapeCast_self, sliceTop_apply, sliceMid_apply, bcastCol_apply, bcastRow25_apply, bcastRow8_apply]
  rfl

end Cert.KernelIdeal.Body

end
-- ==== Proof.KBlocks.lean ====
/-
  From the blocks to the array: what the kernel's output array holds after the run.

  The grid has 100 points; point t works on rows 5000·t … 5000·t + 4999 of the node arrays (the node features, the summed
  messages, the arrival counts and the output all move with t; the bias row, W1, W2 and the output bias row are whole at
  every point). What point t writes back is therefore block t of ONE function of the arrays as the region finds them —
  the node update spelt the kernel's way, `Cert.NodeUpdate.kernelOut` — and the 100 blocks tile the output, so after the
  run the output array IS that function.
-/
import proofs.«154105_j19894288515268_2_alg».proof.Proof.Gen.KernelIdeal.Value
import proofs.«154105_j19894288515268_2_alg».proof.Proof.KPayload
import proofs.«154105_j19894288515268_2_alg».proof.Proof.Spec

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.NodeUpdate (ANx8 ANx16 ANx1 A1x25 A25x25 A25x8 A1x8 kernelAt kernelOut kHidden)

/-! ## The stored value of a block whose loads are rows T·5000 … of the arrays -/

theorem pay_eq_kernelAt (T : Nat) (hT : T ≤ 99)
    (x0 : Vec Ideal S5000x8 .f32) (x1 : Vec Ideal S5000x16 .f32) (x2 : Vec Ideal S5000x1 .f32) (x3 : Vec Ideal S1x25 .f32)
    (x4 : Vec Ideal S25x25 .f32) (x5 : Vec Ideal S25x8 .f32) (x6 : Vec Ideal S1x8 .f32)
    (A0 : ANx8) (A1 : ANx16) (A2 : ANx1) (A3 : A1x25) (A4 : A25x25) (A5 : A25x8) (A6 : A1x8)
    (h0 : ∀ (p : Fin 5000) (a : Fin 8), x0 (ix2 p a) = A0 (ix2 (⟨T * 5000 + p.val, by omega⟩ : Fin 500000) a))
    (h1 : ∀ (p : Fin 5000) (b : Fin 16), x1 (ix2 p b) = A1 (ix2 (⟨T * 5000 + p.val, by omega⟩ : Fin 500000) b))
    (h2 : ∀ (p : Fin 5000), x2 (ix2 p (0 : Fin 1)) = A2 (ix2 (⟨T * 5000 + p.val, by omega⟩ : Fin 500000) (0 : Fin 1)))
    (h3 : ∀ k : Fin 25, x3 (ix2 (0 : Fin 1) k) = A3 (ix2 (0 : Fin 1) k))
    (h4 : ∀ (d k : Fin 25), x4 (ix2 d k) = A4 (ix2 d k))
    (h5 : ∀ (k : Fin 25) (o : Fin 8), x5 (ix2 k o) = A5 (ix2 k o))
    (h6 : ∀ o : Fin 8, x6 (ix2 (0 : Fin 1) o) = A6 (ix2 (0 : Fin 1) o))
    (p : Fin 5000) (o : Fin 8) :
    k0_pay1 (F := Ideal) x0 x1 x2 x4 x3 x5 x6 (ix2 p o)
      = kernelAt A0 A1 A2 A3 A4 A5 A6 (⟨T * 5000 + p.val, by omega⟩ : Fin 500000) o := by
  rw [Body.pay_apply]
  unfold Body.blockOut Body.blockHidden kernelAt kHidden
  simp only [h0, h1, h2, h3, h4, h5, h6]

variable (m : (ℓ : Loc nD τ sig) → Buf (Elt Ideal) ℓ) (ρ : Dev nD → PrngReg)

/-! ## The index maps, decided over the 100 points -/

theorem hz : (![0, 0] : Fin 2 → Nat) = fun _ => 0 := funext fun a => by fin_cases a <;> rfl

/-- The node features, the summed messages and the counts move with the output block; the other operands stay. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 99 ∧ win0_7.index t (1 : Fin 2) = 0 :=
  (by decide +kernel : ∀ t : Fin grid0.N, _)

/-- Every block row of the output is some point's. -/
theorem idx_onto : ∀ q : Fin 100, ∃ t : Fin cfg0.N, win0_7.index t = ![q.val, 0] :=
  (by decide +kernel : ∀ q : Fin 100, ∃ t : Fin grid0.N, win0_7.index t = ![q.val, 0])

/-! ## The input windows' blocks, read where the output block's rows are

Each window's array, as the region finds it, is carried as a VARIABLE with its defining equation. -/

theorem read0 (c : Dev nD) (A0 : ANx8) (h : V m c (Pipeline.arrRef spec0 0) = A0) (t : Fin cfg0.N) (hT : win0_7.index t (0 : Fin 2) ≤ 99) (p : Fin 5000) (a : Fin 8) :
    iblk m c 0 t (ix2 p a) = A0 (ix2 (⟨win0_7.index t (0 : Fin 2) * 5000 + p.val, by omega⟩ : Fin 500000) a) := by
  obtain ⟨e00, e01, -⟩ := idx_facts t
  unfold iblk
  rw [h]
  show A0 (((cfg0.win 0).blk t).view.emb (ix2 p a)) = _
  refine congrArg A0 (funext fun d => Fin.ext ?_)
  match d with
  | ⟨0, _⟩ => show win0_0.index t (0 : Fin 2) * 5000 + 1 * p.val = win0_7.index t (0 : Fin 2) * 5000 + p.val; omega
  | ⟨1, _⟩ => show win0_0.index t (1 : Fin 2) * 8 + 1 * a.val = a.val; omega

theorem read1 (c : Dev nD) (A1 : ANx16) (h : V m c (Pipeline.arrRef spec0 1) = A1) (t : Fin cfg0.N) (hT : win0_7.index t (0 : Fin 2) ≤ 99) (p : Fin 5000) (b : Fin 16) :
    iblk m c 1 t (ix2 p b) = A1 (ix2 (⟨win0_7.index t (0 : Fin 2) * 5000 + p.val, by omega⟩ : Fin 500000) b) := by
  obtain ⟨-, -, e10, e11, -⟩ := idx_facts t
  unfold iblk
  rw [h]
  show A1 (((cfg0.win 1).blk t).view.emb (ix2 p b)) = _
  refine congrArg A1 (funext fun d => Fin.ext ?_)
  match d with
  | ⟨0, _⟩ => show win0_1.index t (0 : Fin 2) * 5000 + 1 * p.val = win0_7.index t (0 : Fin 2) * 5000 + p.val; omega
  | ⟨1, _⟩ => show win0_1.index t (1 : Fin 2) * 16 + 1 * b.val = b.val; omega

theorem read2 (c : Dev nD) (A2 : ANx1) (h : V m c (Pipeline.arrRef spec0 2) = A2) (t : Fin cfg0.N) (hT : win0_7.index t (0 : Fin 2) ≤ 99) (p : Fin 5000) :
    iblk m c 2 t (ix2 p (0 : Fin 1)) = A2 (ix2 (⟨win0_7.index t (0 : Fin 2) * 5000 + p.val, by omega⟩ : Fin 500000) (0 : Fin 1)) := by
  obtain ⟨-, -, -, -, e20, e21, -⟩ := idx_facts t
  unfold iblk
  rw [h]
  show A2 (((cfg0.win 2).blk t).view.emb (ix2 p (0 : Fin 1))) = _
  refine congrArg A2 (funext fun d => Fin.ext ?_)
  match d with
  | ⟨0, _⟩ => show win0_2.index t (0 : Fin 2) * 5000 + 1 * p.val = win0_7.index t (0 : Fin 2) * 5000 + p.val; omega
  | ⟨1, _⟩ => show win0_2.index t (1 : Fin 2) * 1 + 1 * 0 = 0; omega

theorem read3 (c : Dev nD) (A3 : A1x25) (h : V m c (Pipeline.arrRef spec0 3) = A3) (t : Fin cfg0.N) (k : Fin 25) :
    iblk m c 3 t (ix2 (0 : Fin 1) k) = A3 (ix2 (0 : Fin 1) k) := by
  obtain ⟨-, -, -, -, -, -, e30, e31, -⟩ := idx_facts t
  unfold iblk
  rw [h]
  show A3 (((cfg0.win 3).blk t).view.emb (ix2 (0 : Fin 1) k)) = _
  refine congrArg A3 (funext fun d => Fin.ext ?_)
  match d with
  | ⟨0, _⟩ => show win0_3.index t (0 : Fin 2) * 1 + 1 * 0 = 0; omega
  | ⟨1, _⟩ => show win0_3.index t (1 : Fin 2) * 25 + 1 * k.val = k.val; omega

theorem read4 (c : Dev nD) (A4 : A25x25) (h : V m c (Pipeline.arrRef spec0 4) = A4) (t : Fin cfg0.N) (r k : Fin 25) :
    iblk m c 4 t (ix2 r k) = A4 (ix2 r k) := by
  obtain ⟨-, -, -, -, -, -, -, -, e40, e41, -⟩ := idx_facts t
  unfold iblk
  rw [h]
  show A4 (((cfg0.win 4).blk t).view.emb (ix2 r k)) = _
  refine congrArg A4 (funext fun d => Fin.ext ?_)
  match d with
  | ⟨0, _⟩ => show win0_4.index t (0 : Fin 2) * 25 + 1 * r.val = r.val; omega
  | ⟨1, _⟩ => show win0_4.index t (1 : Fin 2) * 25 + 1 * k.val = k.val; omega

theorem read5 (c : Dev nD) (A5 : A25x8) (h : V m c (Pipeline.arrRef spec0 5) = A5) (t : Fin cfg0.N) (k : Fin 25) (o : Fin 8) :
    iblk m c 5 t (ix2 k o) = A5 (ix2 k o) := by
  obtain ⟨-, -, -, -, -, -, -, -, -, -, e50, e51, -⟩ := idx_facts t
  unfold iblk
  rw [h]
  show A5 (((cfg0.win 5).blk t).view.emb (ix2 k o)) = _
  refine congrArg A5 (funext fun d => Fin.ext ?_)
  match d with
  | ⟨0, _⟩ => show win0_5.index t (0 : Fin 2) * 25 + 1 * k.val = k.val; omega
  | ⟨1, _⟩ => show win0_5.index t (1 : Fin 2) * 8 + 1 * o.val = o.val; omega

theorem read6 (c : Dev nD) (A6 : A1x8) (h : V m c (Pipeline.arrRef spec0 6) = A6) (t : Fin cfg0.N) (o : Fin 8) :
    iblk m c 6 t (ix2 (0 : Fin 1) o) = A6 (ix2 (0 : Fin 1) o) := by
  obtain ⟨-, -, -, -, -, -, -, -, -, -, -, -, e60, e61, -⟩ := idx_facts t
  unfold iblk
  rw [h]
  show A6 (((cfg0.win 6).blk t).view.emb (ix2 (0 : Fin 1) o)) = _
  refine congrArg A6 (funext fun d => Fin.ext ?_)
  match d with
  | ⟨0, _⟩ => show win0_6.index t (0 : Fin 2) * 1 + 1 * 0 = 0; omega
  | ⟨1, _⟩ => show win0_6.index t (1 : Fin 2) * 8 + 1 * o.val = o.val; omega

/-! ## What each point writes back, the cover, the array

The arrays the region finds are carried as VARIABLES `A0 … A6` (one per input window, each with the equation that it is
what the region finds in that window's array): what a point writes back, and the final array, are then the kernel's
closed form `kernelOut` of those arrays, whatever they hold. -/

section Arrays

variable (A0 : Dev nD → ANx8) (A1 : Dev nD → ANx16) (A2 : Dev nD → ANx1) (A3 : Dev nD → A1x25) (A4 : Dev nD → A25x25)
  (A5 : Dev nD → A25x8) (A6 : Dev nD → A1x8)

/-- WHAT POINT t WRITES BACK is block t of the closed form. -/
theorem flushed_eq (c : Dev nD)
    (h0 : V m c (Pipeline.arrRef spec0 0) = A0 c) (h1 : V m c (Pipeline.arrRef spec0 1) = A1 c)
    (h2 : V m c (Pipeline.arrRef spec0 2) = A2 c) (h3 : V m c (Pipeline.arrRef spec0 3) = A3 c)
    (h4 : V m c (Pipeline.arrRef spec0 4) = A4 c) (h5 : V m c (Pipeline.arrRef spec0 5) = A5 c)
    (h6 : V m c (Pipeline.arrRef spec0 6) = A6 c) (t : Fin cfg0.N) :
    (dats m 0 c).flushed 7 t
      = ((cfg0.win 7).blk t).view.read (Elt Ideal) (kernelOut (A0 c) (A1 c) (A2 c) (A3 c) (A4 c) (A5 c) (A6 c)) := by
  rw [Value.flushed7]
  unfold out0_7
  rw [View.canon_unit_zero hz]
  simp only [View.ld_unit_zero (S := S5000x8) hz, View.ld_unit_zero (S := S5000x16) hz, View.ld_unit_zero (S := S5000x1) hz,
    View.ld_unit_zero (S := S1x25) hz, View.ld_unit_zero (S := S25x25) hz, View.ld_unit_zero (S := S25x8) hz,
    View.ld_unit_zero (S := S1x8) hz]
  have hT : win0_7.index t (0 : Fin 2) ≤ 99 := (idx_facts t).2.2.2.2.2.2.2.2.2.2.2.2.2.2.1
  have h71 : win0_7.index t (1 : Fin 2) = 0 := (idx_facts t).2.2.2.2.2.2.2.2.2.2.2.2.2.2.2
  refine funext fun (j : S5000x8.Idx) => ?_
  obtain ⟨p, o, rfl⟩ : ∃ (p : Fin 5000) (o : Fin 8), j = ix2 p o := ⟨j 0, j 1, eq_ix2 j⟩
  show k0_pay1 (F := Ideal) (iblk m c 0 t) (iblk m c 1 t) (iblk m c 2 t) (iblk m c 4 t) (iblk m c 3 t) (iblk m c 5 t) (iblk m c 6 t) (ix2 p o)
      = kernelOut (A0 c) (A1 c) (A2 c) (A3 c) (A4 c) (A5 c) (A6 c) (((cfg0.win 7).blk t).view.emb (ix2 p o))
  have e7 : ((cfg0.win 7).blk t).view.emb (ix2 p o)
      = ix2 (⟨win0_7.index t (0 : Fin 2) * 5000 + p.val, by omega⟩ : Fin 500000) o := funext fun d => Fin.ext (by
    match d with
    | ⟨0, _⟩ => show win0_7.index t (0 : Fin 2) * 5000 + 1 * p.val = win0_7.index t (0 : Fin 2) * 5000 + p.val; omega
    | ⟨1, _⟩ => show win0_7.index t (1 : Fin 2) * 8 + 1 * o.val = o.val; omega)
  rw [e7]
  exact pay_eq_kernelAt (win0_7.index t (0 : Fin 2)) hT (iblk m c 0 t) (iblk m c 1 t) (iblk m c 2 t) (iblk m c 3 t) (iblk m c 4 t)
    (iblk m c 5 t) (iblk m c 6 t) (A0 c) (A1 c) (A2 c) (A3 c) (A4 c) (A5 c) (A6 c)
    (read0 m c (A0 c) h0 t hT) (read1 m c (A1 c) h1 t hT) (read2 m c (A2 c) h2 t hT) (read3 m c (A3 c) h3 t) (read4 m c (A4 c) h4 t)
    (read5 m c (A5 c) h5 t) (read6 m c (A6 c) h6 t) p o

/-- An index of the array is in point t's block iff each coordinate is in the block's range on its axis. -/
theorem mem_blk (t : Fin cfg0.N) (i : S500000x8.Idx) :
    i ∈ ((cfg0.win 7).blk t).view.set ↔ ∀ a : Fin 2, win0_7.index t a * S5000x8.size a ≤ (i a).val ∧ (i a).val < win0_7.index t a * S5000x8.size a + S5000x8.size a := by
  show i ∈ ((View.whole main_v31).slice (win0_7.rect t)).set ↔ _
  rw [View.set_slice_whole, Rect.mem_set_unit]
  exact Iff.rfl

/-- Row r of the output is in the block of the point whose block row is r / 5000. -/
theorem cover (i : S500000x8.Idx) : ∃ t : Fin cfg0.N, (cfg0.win 7).flush t = true ∧ i ∈ ((cfg0.win 7).blk t).view.set := by
  have hi0 : (i 0).val < 500000 := (i 0).isLt
  have hi1 : (i 1).val < 8 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 8 ≤ (i 1).val ∧ (i 1).val < win0_7.index t (1 : Fin 2) * 8 + 8; omega

/-- THE ARRAY after the run is the closed form of the arrays the region found. -/
theorem final (c : Dev nD)
    (h0 : V m c (Pipeline.arrRef spec0 0) = A0 c) (h1 : V m c (Pipeline.arrRef spec0 1) = A1 c)
    (h2 : V m c (Pipeline.arrRef spec0 2) = A2 c) (h3 : V m c (Pipeline.arrRef spec0 3) = A3 c)
    (h4 : V m c (Pipeline.arrRef spec0 4) = A4 c) (h5 : V m c (Pipeline.arrRef spec0 5) = A5 c)
    (h6 : V m c (Pipeline.arrRef spec0 6) = A6 c) :
    (dats m 0 c).arrAt 7 cfg0.N = kernelOut (A0 c) (A1 c) (A2 c) (A3 c) (A4 c) (A5 c) (A6 c) :=
  (dats m 0 c).arrAt_eq_of_cover 7 (kernelOut (A0 c) (A1 c) (A2 c) (A3 c) (A4 c) (A5 c) (A6 c))
    (fun t _ => flushed_eq m A0 A1 A2 A3 A4 A5 A6 c h0 h1 h2 h3 h4 h5 h6 t) cover

/-- The kernel's run: the output array ends at the closed form, the arguments unchanged. -/
theorem run
    (h0 : ∀ c, V m c (Pipeline.arrRef spec0 0) = A0 c) (h1 : ∀ c, V m c (Pipeline.arrRef spec0 1) = A1 c)
    (h2 : ∀ c, V m c (Pipeline.arrRef spec0 2) = A2 c) (h3 : ∀ c, V m c (Pipeline.arrRef spec0 3) = A3 c)
    (h4 : ∀ c, V m c (Pipeline.arrRef spec0 4) = A4 c) (h5 : ∀ c, V m c (Pipeline.arrRef spec0 5) = A5 c)
    (h6 : ∀ c, V m c (Pipeline.arrRef spec0 6) = A6 c) :
    θ_run defs (onTc (τ := τ) (main (F := Ideal))) ⟨m, fun _ => 0, ρ⟩ fun r => ∀ c : Dev nD,
      r.2.mem ((c : Thread nD τ).loc main_v31) = kernelOut (A0 c) (A1 c) (A2 c) (A3 c) (A4 c) (A5 c) (A6 c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m A0 A1 A2 A3 A4 A5 A6 c (h0 c) (h1 c) (h2 c) (h3 c) (h4 c) (h5 c) (h6 c)), (h c).2⟩)
    (Value.run_blocks m ρ)

end Arrays

/-! ## The arrays the region finds, window by window -/

/-- Equal references hold equal contents when the region is entered. -/
theorem V_heq (c : Dev nD) (a b : Ref sig .tc) (h : a = b) : HEq (V m c a) (V m c b) := by subst h; rfl

theorem arr0 : Pipeline.arrRef spec0 0 = main_arg0 := rfl
theorem arr1 : Pipeline.arrRef spec0 1 = main_v21 := rfl
theorem arr2 : Pipeline.arrRef spec0 2 = main_v22 := rfl
theorem arr3 : Pipeline.arrRef spec0 3 = main_v29 := rfl
theorem arr4 : Pipeline.arrRef spec0 4 = main_arg5 := rfl
theorem arr5 : Pipeline.arrRef spec0 5 = main_arg7 := rfl
theorem arr6 : Pipeline.arrRef spec0 6 = main_v30 := rfl

/-- The kernel's run with the arrays named by their buffers: the node features, the summed messages, the one-column
    counts, the bias row, W1, W2 and the output bias row, as the region finds them. -/
theorem run_named :
    θ_run defs (onTc (τ := τ) (main (F := Ideal))) ⟨m, fun _ => 0, ρ⟩ fun r => ∀ c : Dev nD,
      r.2.mem ((c : Thread nD τ).loc main_v31)
        = kernelOut (V m c main_arg0 : ANx8) (V m c main_v21 : ANx16) (V m c main_v22 : ANx1) (V m c main_v29 : A1x25)
            (V m c main_arg5 : A25x25) (V m c main_arg7 : A25x8) (V m c main_v30 : A1x8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  run m ρ (fun c => (V m c main_arg0 : ANx8)) (fun c => (V m c main_v21 : ANx16)) (fun c => (V m c main_v22 : ANx1))
    (fun c => (V m c main_v29 : A1x25)) (fun c => (V m c main_arg5 : A25x25)) (fun c => (V m c main_arg7 : A25x8))
    (fun c => (V m c main_v30 : A1x8))
    (fun c => eq_of_heq (V_heq m c _ _ arr0)) (fun c => eq_of_heq (V_heq m c _ _ arr1)) (fun c => eq_of_heq (V_heq m c _ _ arr2))
    (fun c => eq_of_heq (V_heq m c _ _ arr3)) (fun c => eq_of_heq (V_heq m c _ _ arr4)) (fun c => eq_of_heq (V_heq m c _ _ arr5))
    (fun c => eq_of_heq (V_heq m c _ _ arr6))

end Cert.KernelIdeal.Blocks

end
-- ==== Proof.KHostDefs.lean ====
/-
  The values the kernel's program computes on the host before the region, as functions of the program's arguments.

  From the edge list (row 0: source nodes, row 1: destination nodes): the destination index column; the source rows of x
  gathered per edge; their sum and the edge attributes' sum over each destination node, side by side (16 columns); the
  number of edges arriving at each node, as one column; the bias row b1 + u 0 · (row 24 of W1); and b2 as a row.
-/
import proofs.«154105_j19894288515268_2_alg».proof.Proof.Gen.KernelIdeal

noncomputable section

namespace Cert.KernelIdeal.HostSide

open Cert.KernelIdeal Cert.KernelIdeal.Gen Idealize.ShloMosaic Idealize.ShloMosaic.TcCoe

variable {F : FTy → Type} [FloatOps F]

/-- Row 1 of the edge list (the destination nodes), as a column of scatter indices. -/
def colIdx (ei : (⟨S2x16000000, .i32⟩ : BufTy).Contents (Elt F)) : (⟨S16000000x1, .i32⟩ : BufTy).Contents (Elt F) :=
  broadcastInDim S16000000x1 ![0] bcast_S16000000_S16000000x1_0
    (shapeCast _ (extractStridedSlice S1x16000000 ![1, 0] ei slices_S2x16000000_S1x16000000_1_0) shapeCasts_S1x16000000_S16000000)

/-- Row 0 of the edge list (the source nodes), a negative entry moved up by the number of nodes, as a column of gather
    indices. -/
def rowIdx (ei : (⟨S2x16000000, .i32⟩ : BufTy).Contents (Elt F)) : (⟨S16000000x1, .i32⟩ : BufTy).Contents (Elt F) :=
  broadcastInDim S16000000x1 ![0] bcast_S16000000_S16000000x1_0
    (select (cmpi .slt (shapeCast _ (extractStridedSlice S1x16000000 ![0, 0] ei slices_S2x16000000_S1x16000000_0_0) shapeCasts_S1x16000000_S16000000)
        (broadcastInDim S16000000 ![] bcast_S_S16000000 (constantI S_ 32 0#32)))
      (addi (shapeCast _ (extractStridedSlice S1x16000000 ![0, 0] ei slices_S2x16000000_S1x16000000_0_0) shapeCasts_S1x16000000_S16000000)
        (broadcastInDim S16000000 ![] bcast_S_S16000000 (constantI S_ 32 500000#32)))
      (shapeCast _ (extractStridedSlice S1x16000000 ![0, 0] ei slices_S2x16000000_S1x16000000_0_0) shapeCasts_S1x16000000_S16000000))

/-- The source node's features, per edge. -/
def gathered (x : (⟨S500000x8, .f32⟩ : BufTy).Contents (Elt F)) (ei : (⟨S2x16000000, .i32⟩ : BufTy).Contents (Elt F)) :
    (⟨S16000000x8, .f32⟩ : BufTy).Contents (Elt F) :=
  Host.gather gather_S500000x8_S16000000x1_S16000000x8_1_0_n_n_0_1_18 x (rowIdx ei)

/-- The sum over each destination node of the gathered features (columns 0..7) and of the edge attributes (columns 8..15),
    each summed on its own and the two laid side by side. -/
def summed (x : (⟨S500000x8, .f32⟩ : BufTy).Contents (Elt F)) (ei : (⟨S2x16000000, .i32⟩ : BufTy).Contents (Elt F))
    (ea : (⟨S16000000x8, .f32⟩ : BufTy).Contents (Elt F)) : (⟨S500000x16, .f32⟩ : BufTy).Contents (Elt F) :=
  concatenate S500000x16 1
    [⟨S500000x8, Host.scatterAdd scatter_S500000x8_S16000000x1_S16000000x8_1_0_0_1
        (broadcastInDim S500000x8 ![] bcast_S_S500000x8 (constant S_ .f32 0x00000000#32)) (colIdx ei) (gathered x ei)⟩,
     ⟨S500000x8, Host.scatterAdd scatter_S500000x8_S16000000x1_S16000000x8_1_0_0_1
        (broadcastInDim S500000x8 ![] bcast_S_S500000x8 (constant S_ .f32 0x00000000#32)) (colIdx ei) ea⟩]
    concatenates_S500000x8_S500000x8_S500000x16_d1

/-- The number of edges arriving at each node. -/
def count (ei : (⟨S2x16000000, .i32⟩ : BufTy).Contents (Elt F)) : (⟨S500000, .f32⟩ : BufTy).Contents (Elt F) :=
  Host.scatterAdd scatter_S500000_S16000000x1_S16000000_n_0_0_1
    (broadcastInDim S500000 ![] bcast_S_S500000 (constant S_ .f32 0x00000000#32)) (colIdx ei)
    (broadcastInDim S16000000 ![] bcast_S_S16000000 (constant S_ .f32 0x3F800000#32))

/-- The same as one column. -/
def countCol (ei : (⟨S2x16000000, .i32⟩ : BufTy).Contents (Elt F)) : (⟨S500000x1, .f32⟩ : BufTy).Contents (Elt F) :=
  broadcastInDim S500000x1 ![0] bcast_S500000_S500000x1_0 (count ei)

/-- The bias row: b1 + u 0 · (row 24 of W1). -/
def biasRow (u : (⟨S1, .f32⟩ : BufTy).Contents (Elt F)) (W1 : (⟨S25x25, .f32⟩ : BufTy).Contents (Elt F))
    (b1 : (⟨S25, .f32⟩ : BufTy).Contents (Elt F)) : (⟨S1x25, .f32⟩ : BufTy).Contents (Elt F) :=
  shapeCast _ (addf b1 (mulf (broadcastInDim S25 ![] bcast_S_S25 (shapeCast _ u shapeCasts_S1_S_))
      (shapeCast _ (extractStridedSlice S1x25 ![24, 0] W1 slices_S25x25_S1x25_24_0) shapeCasts_S1x25_S25))) shapeCasts_S25_S1x25

/-- b2 as a row. -/
def b2Row (b2 : (⟨S8, .f32⟩ : BufTy).Contents (Elt F)) : (⟨S1x8, .f32⟩ : BufTy).Contents (Elt F) :=
  shapeCast _ b2 shapeCasts_S8_S1x8

end Cert.KernelIdeal.HostSide

end
-- ==== Proof.KHost.lean ====
/-
  What the region finds in the arrays its windows stage: the host operations before the region, read back.

  Window 1's array is the summed messages, window 2's the arrival counts as a column, window 3's the bias row and window
  6's b2 as a row — each the composed term of the program's arguments that `Cert.KernelIdeal.HostSide` names.
-/
import proofs.«154105_j19894288515268_2_alg».proof.Proof.Gen.KernelIdeal.Frame
import proofs.«154105_j19894288515268_2_alg».proof.Proof.KHostDefs
import Idealize.ShloMosaic.Lib.StableHlo.Run
import Idealize.ShloMosaic.PureOps.Ideal

noncomputable section

namespace Cert.KernelIdeal.HostSide

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 65536 in
theorem V_v21 (c : Dev nD) : (V m c main_v21 : S500000x16.Idx → EReal)
    = summed (F := Ideal) (m ((c : Thread nD τ).loc main_arg0)) (m ((c : Thread nD τ).loc main_arg1)) (m ((c : Thread nD τ).loc main_arg2)) := by
  dsimp only [Gen.V, Gen.hostOps0]
  after_results_simp
  rfl

set_option maxRecDepth 65536 in
theorem V_v22 (c : Dev nD) : (V m c main_v22 : S500000x1.Idx → EReal)
    = countCol (F := Ideal) (m ((c : Thread nD τ).loc main_arg1)) := by
  dsimp only [Gen.V, Gen.hostOps0]
  after_results_simp
  rfl

set_option maxRecDepth 65536 in
theorem V_v29 (c : Dev nD) : (V m c main_v29 : S1x25.Idx → EReal)
    = biasRow (F := Ideal) (m ((c : Thread nD τ).loc main_arg3)) (m ((c : Thread nD τ).loc main_arg5)) (m ((c : Thread nD τ).loc main_arg6)) := by
  dsimp only [Gen.V, Gen.hostOps0]
  after_results_simp
  rfl

set_option maxRecDepth 65536 in
theorem V_v30 (c : Dev nD) : (V m c main_v30 : S1x8.Idx → EReal)
    = b2Row (F := Ideal) (m ((c : Thread nD τ).loc main_arg8)) := by
  dsimp only [Gen.V, Gen.hostOps0]
  after_results_simp
  rfl

end Cert.KernelIdeal.HostSide

end
-- ==== Proof.KHostRead.lean ====
/-
  The kernel program's host-side values read at an index: the one-column arrival count is the count, the bias row is
  b1 k + u 0 · W1 (24, k), and the row of b2 is b2.
-/
import proofs.«154105_j19894288515268_2_alg».proof.Proof.KHostDefs
import Idealize.ShloMosaic.PureOps.Ideal.Laws
import Idealize.ShloMosaic.Lib.ValueIdx
import Idealize.ShloMosaic.Lib.Pipeline.Value
noncomputable section
namespace Cert.KernelIdeal.HostSide
open Cert.KernelIdeal Cert.KernelIdeal.Gen Idealize.ShloMosaic Idealize.ShloMosaic.TcCoe Idealize.ShloMosaic.ValueIdx

/-- The one-column count at (n, 0) is the count at n. -/
theorem countCol_apply (ei : (⟨S2x16000000, .i32⟩ : BufTy).Contents (Elt Ideal)) (n : Fin 500000) :
    countCol (F := Ideal) ei (ix2 n (0 : Fin 1)) = count (F := Ideal) ei (ix1 n) := by
  unfold countCol
  generalize count (F := Ideal) ei = y
  exact broadcastInDim_apply _ bcast_S500000_S500000x1_0 y (ix2 n (0 : Fin 1)) (ix1 n) (fun a => match a with
    | ⟨0, _⟩ => by show n.val = if (500000 : Nat) = 1 then 0 else n.val; rw [if_neg (by decide)])

/-- The global feature as a scalar, broadcast along the 25 hidden units, is the one entry of u. -/
theorem uRow_apply (u : (⟨S1, .f32⟩ : BufTy).Contents (Elt Ideal)) (k : Fin 25) :
    broadcastInDim S25 ![] bcast_S_S25 (shapeCast _ u shapeCasts_S1_S_) (ix1 k) = u (ix1 (0 : Fin 1)) := by
  refine (broadcastInDim_apply _ bcast_S_S25 (shapeCast _ u shapeCasts_S1_S_) (ix1 k) ix0 (fun a => a.elim0)).trans ?_
  exact shapeCast_apply u shapeCasts_S1_S_ ix0 (ix1 (0 : Fin 1))
    (by rewrite [Shape.rowMajor_val_one]; exact (Shape.rowMajorPi_zero _ _).symm)

/-- Row 24 of W1, as a vector, at k. -/
theorem w24_apply (W1 : (⟨S25x25, .f32⟩ : BufTy).Contents (Elt Ideal)) (k : Fin 25) :
    shapeCast _ (extractStridedSlice S1x25 ![24, 0] W1 slices_S25x25_S1x25_24_0) shapeCasts_S1x25_S25 (ix1 k)
      = W1 (ix2 (⟨24, by omega⟩ : Fin 25) k) := by
  refine (shapeCast_apply (extractStridedSlice S1x25 ![24, 0] W1 slices_S25x25_S1x25_24_0) shapeCasts_S1x25_S25 (ix1 k)
    (ix2 (0 : Fin 1) k)
    (by rewrite [Shape.rowMajor_val_two, Shape.rowMajor_val_one]; show 0 * 25 + k.val = k.val; omega)).trans ?_
  exact extractStridedSlice_apply ![24, 0] W1 slices_S25x25_S1x25_24_0 (ix2 (0 : Fin 1) k) (ix2 (⟨24, by omega⟩ : Fin 25) k)
    (fun a => match a with
      | ⟨0, _⟩ => by show 24 = 24 + 0; omega
      | ⟨1, _⟩ => by show k.val = 0 + k.val; omega)

/-- The bias row at (0, k): b1 k + u 0 · W1 (24, k). -/
theorem biasRow_apply (u : (⟨S1, .f32⟩ : BufTy).Contents (Elt Ideal)) (W1 : (⟨S25x25, .f32⟩ : BufTy).Contents (Elt Ideal))
    (b1 : (⟨S25, .f32⟩ : BufTy).Contents (Elt Ideal)) (k : Fin 25) :
    biasRow (F := Ideal) u W1 b1 (ix2 (0 : Fin 1) k) = b1 (ix1 k) + u (ix1 (0 : Fin 1)) * W1 (ix2 (⟨24, by omega⟩ : Fin 25) k) := by
  unfold biasRow
  refine (shapeCast_apply _ shapeCasts_S25_S1x25 (ix2 (0 : Fin 1) k) (ix1 k)
    (by rewrite [Shape.rowMajor_val_one, Shape.rowMajor_val_two]; show k.val = 0 * 25 + k.val; omega)).trans ?_
  rw [addf_apply, mulf_apply, uRow_apply, w24_apply]

/-- b2 as a row, at (0, o). -/
theorem b2Row_apply (b2 : (⟨S8, .f32⟩ : BufTy).Contents (Elt Ideal)) (o : Fin 8) :
    b2Row (F := Ideal) b2 (ix2 (0 : Fin 1) o) = b2 (ix1 o) := by
  unfold b2Row
  exact shapeCast_apply b2 shapeCasts_S8_S1x8 (ix2 (0 : Fin 1) o) (ix1 o)
    (by rewrite [Shape.rowMajor_val_one, Shape.rowMajor_val_two]; show o.val = 0 * 8 + o.val; omega)

end Cert.KernelIdeal.HostSide
end
-- ==== Proof.LibScatterRows.lean ====
import Idealize.ShloMosaic.PureOps.Ideal
import Idealize.ShloMosaic.PureOps.Ideal.Laws
import Idealize.ShloMosaic.Lib.ValueIdx
import Idealize.ShloMosaic.Lib.Pipeline.Value
noncomputable section
namespace Cert.ScatterRows
open Idealize.ShloMosaic Idealize.ShloMosaic.ValueIdx

/-! ## The result index of a scatter, as an equation per axis -/

/-- An update lands at operand index `i` exactly when, on every axis, its window start plus its window
    coordinate is `i`'s coordinate (as integers: a start is read signed, and a sum outside the operand
    equals no coordinate). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some_inj]
    constructor
    · intro hh a
      have h1 := h a
      have h2 := congrArg (fun f => (f a).val) hh
      simp only at h2
      omega
    · intro hh
      funext a
      apply Fin.ext
      have := hh a
      simp only
      omega
  · rename_i h
    constructor
    · intro hh; cases hh
    · intro hh
      exfalso; apply h
      intro a
      have := hh a
      have := (i a).isLt
      omega

/-! ## The row scatter's dimension numbers: operand `[N,K]`, indices `[E,1]`, updates `[E,K]`,
    update row `e` added to operand row `idx (e,0)`, column by column -/

section Rows
variable {N E K : Nat}

/-- The operand's axes that are not inserted: the column axis. -/
theorem kept0 : (⟨2, ![N, K]⟩ : Shape).kept [0] = [1] := by
  show (List.finRange 2).filter (· ∉ [0]) = [1]
  decide

variable {w : Nat}
    (wf : ScatterDims.WF (⟨2, ![N, K]⟩ : Shape) (⟨2, ![E, 1]⟩ : Shape) (⟨2, ![E, K]⟩ : Shape) [1] [0] [0] 1)

/-- The row scatter's dimension numbers with their literal lists. -/
abbrev rowDims (wf : ScatterDims.WF (⟨2, ![N, K]⟩ : Shape) (⟨2, ![E, 1]⟩ : Shape) (⟨2, ![E, K]⟩ : Shape) [1] [0] [0] 1) :
    ScatterDims (⟨2, ![N, K]⟩ : Shape) (⟨2, ![E, 1]⟩ : Shape) (⟨2, ![E, K]⟩ : Shape) := ⟨[1], [0], [0], 1, wf⟩

/-- On the row axis (inserted) the window coordinate is zero. -/
theorem window0 (j : (⟨2, ![E, K]⟩ : Shape).Idx) : (rowDims wf).window j 0 = 0 := by
  unfold ScatterDims.window
  rw [dif_neg]
  show ¬ ((0 : Fin 2) ∈ (⟨2, ![N, K]⟩ : Shape).kept [0])
  rw [kept0]
  show ¬ ((0 : Fin 2) ∈ [(1 : Fin 2)])
  decide

/-- On the column axis the window coordinate is the update's column. -/
theorem window1 (j : (⟨2, ![E, K]⟩ : Shape).Idx) : (rowDims wf).window j 1 = (j 1).val := by
  unfold ScatterDims.window
  rw [dif_pos]
  · rfl
  · show ((1 : Fin 2) ∈ (⟨2, ![N, K]⟩ : Shape).kept [0])
    rw [kept0]
    show ((1 : Fin 2) ∈ [(1 : Fin 2)])
    decide

/-- On the column axis (not named by the map) the window starts at zero. -/
theorem start1 (j : (⟨2, ![E, K]⟩ : Shape).Idx) (idx : IVec (⟨2, ![E, 1]⟩ : Shape) w) :
    (rowDims wf).start j idx 1 = 0 := by
  unfold ScatterDims.start
  rw [dif_neg]
  show ¬ ((1 : Fin 2) ∈ [(0 : Fin 2)])
  decide

/-- Update row `e` reads its one start component at scatter-indices element `(e,0)`. -/
theorem siIdx0 (j : (⟨2, ![E, K]⟩ : Shape).Idx) (c : Fin (rowDims wf).scatterDimsToOperandDims.length) :
    (rowDims wf).siIdx j c = ix2 (j 0) (0 : Fin 1) := by
  funext b
  match b with
  | ⟨0, _⟩ => rfl
  | ⟨1, _⟩ =>
    apply Fin.ext
    show c.val = 0
    have h : c.val < 1 := c.isLt
    omega

/-- On the row axis the window starts at the index word of the update's row, read signed. -/
theorem start0 (j : (⟨2, ![E, K]⟩ : Shape).Idx) (idx : IVec (⟨2, ![E, 1]⟩ : Shape) w) :
    (rowDims wf).start j idx 0 = (idx (ix2 (j 0) (0 : Fin 1))).toInt := by
  unfold ScatterDims.start
  rw [dif_pos]
  · exact congrArg (fun t => (idx t).toInt) (siIdx0 wf j _)
  · show ((0 : Fin 2) ∈ [(0 : Fin 2)])
    decide

/-- Update element `(e,c)` lands at operand element `(n,k)` exactly when row `e`'s index word names row `n`
    and the columns agree. -/
theorem resultIdx?_rows (idx : IVec (⟨2, ![E, 1]⟩ : Shape) w) (e : Fin E) (c : Fin K) (n : Fin N) (k : Fin K) :
    (rowDims wf).resultIdx? (ix2 e c) idx = some (ix2 n k)
      ↔ (idx (ix2 e (0 : Fin 1))).toInt = (n.val : Int) ∧ c = k := by
  rw [resultIdx?_eq_some_iff]
  constructor
  · intro h
    have h0 := h 0
    have h1 := h 1
    rw [start0, window0] at h0
    rw [start1, window1] at h1
    have h0' : (idx (ix2 e (0 : Fin 1))).toInt + ((0 : Nat) : Int) = (n.val : Int) := h0
    have h1' : (0 : Int) + (c.val : Int) = (k.val : Int) := h1
    refine ⟨by omega, Fin.ext (by omega)⟩
  · rintro ⟨h0, rfl⟩ a
    match a with
    | ⟨0, _⟩ =>
      show (rowDims wf).start (ix2 e c) idx 0 + ((rowDims wf).window (ix2 e c) 0 : Int) = (n.val : Int)
      rw [start0, window0]
      show (idx (ix2 e (0 : Fin 1))).toInt + ((0 : Nat) : Int) = (n.val : Int)
      omega
    | ⟨1, _⟩ =>
      show (rowDims wf).start (ix2 e c) idx 1 + ((rowDims wf).window (ix2 e c) 1 : Int) = (c.val : Int)
      rw [start1, window1]
      show (0 : Int) + (c.val : Int) = (c.val : Int)
      omega

end Rows

/-- A row scatter-add read at an index: operand element (n,k) plus the sum, over the update rows e whose index word names row n, of update element (e,k). -/
theorem scatterAdd_rows_apply {N E K : Nat} {φ : FTy} {w : Nat}
    (d : ScatterDims (⟨2, ![N, K]⟩ : Shape) (⟨2, ![E, 1]⟩ : Shape) (⟨2, ![E, K]⟩ : Shape))
    (huw : d.updateWindowDims = [1]) (hiw : d.insertedWindowDims = [0])
    (hsd : d.scatterDimsToOperandDims = [0]) (hiv : d.indexVectorDim = 1)
    (x : FVec Ideal (⟨2, ![N, K]⟩ : Shape) φ) (idx : IVec (⟨2, ![E, 1]⟩ : Shape) w)
    (upd : FVec Ideal (⟨2, ![E, K]⟩ : Shape) φ) (n : Fin N) (k : Fin K) :
    Host.scatterAdd d x idx upd (ix2 n k)
      = x (ix2 n k) + ∑ e : Fin E, if (idx (ix2 e (0 : Fin 1))).toInt = (n.val : Int) then upd (ix2 e k) else 0 := by
  obtain ⟨uw, iw, sd, iv, wf⟩ := d
  simp only at huw hiw hsd hiv
  subst huw hiw hsd hiv
  unfold Host.scatterAdd
  rw [Ideal.hostScatterAdd_def]
  unfold Ideal.hostScatterAdd
  congr 1
  rw [Finset.sum_filter, sum_idx2]
  refine Finset.sum_congr rfl fun e _ => ?_
  by_cases h : (idx (ix2 e (0 : Fin 1))).toInt = (n.val : Int)
  · rw [if_pos h, Finset.sum_eq_single k]
    · rw [if_pos ((resultIdx?_rows wf idx e k n k).2 ⟨h, rfl⟩)]
    · intro c _ hc
      rw [if_neg (fun hh => hc ((resultIdx?_rows wf idx e c n k).1 hh).2)]
    · intro hk; exact absurd (Finset.mem_univ k) hk
  · rw [if_neg h]
    refine Finset.sum_eq_zero fun c _ => ?_
    rw [if_neg (fun hh => h ((resultIdx?_rows wf idx e c n k).1 hh).1)]

/-! ## One 16-column row scatter against two 8-column ones -/

/-- One scatter-add of rows joined from two 8-column halves is the join of the halves' scatter-adds (bases constant z). -/
theorem scatterAdd_concat_cols
    (dW : ScatterDims (⟨2, ![500000, 16]⟩ : Shape) (⟨2, ![16000000, 1]⟩ : Shape) (⟨2, ![16000000, 16]⟩ : Shape))
    (hW : dW.updateWindowDims = [1] ∧ dW.insertedWindowDims = [0] ∧ dW.scatterDimsToOperandDims = [0] ∧ dW.indexVectorDim = 1)
    (dH : ScatterDims (⟨2, ![500000, 8]⟩ : Shape) (⟨2, ![16000000, 1]⟩ : Shape) (⟨2, ![16000000, 8]⟩ : Shape))
    (hH : dH.updateWindowDims = [1] ∧ dH.insertedWindowDims = [0] ∧ dH.scatterDimsToOperandDims = [0] ∧ dH.indexVectorDim = 1)
    (hcE : Shape.Concatenates [(⟨2, ![16000000, 8]⟩ : Shape), (⟨2, ![16000000, 8]⟩ : Shape)] (⟨2, ![16000000, 16]⟩ : Shape) 1)
    (hcN : Shape.Concatenates [(⟨2, ![500000, 8]⟩ : Shape), (⟨2, ![500000, 8]⟩ : Shape)] (⟨2, ![500000, 16]⟩ : Shape) 1)
    (z : EReal) (xW : FVec Ideal (⟨2, ![500000, 16]⟩ : Shape) .f32) (xa xb : FVec Ideal (⟨2, ![500000, 8]⟩ : Shape) .f32)
    (hxW : ∀ i, xW i = z) (hxa : ∀ i, xa i = z) (hxb : ∀ i, xb i = z)
    (idx : IVec (⟨2, ![16000000, 1]⟩ : Shape) 32) (g ea : FVec Ideal (⟨2, ![16000000, 8]⟩ : Shape) .f32) :
    Host.scatterAdd dW xW idx (concatenate (⟨2, ![16000000, 16]⟩ : Shape) 1 [⟨(⟨2, ![16000000, 8]⟩ : Shape), g⟩, ⟨(⟨2, ![16000000, 8]⟩ : Shape), ea⟩] hcE)
      = concatenate (⟨2, ![500000, 16]⟩ : Shape) 1 [⟨(⟨2, ![500000, 8]⟩ : Shape), Host.scatterAdd dH xa idx g⟩, ⟨(⟨2, ![500000, 8]⟩ : Shape), Host.scatterAdd dH xb idx ea⟩] hcN := by
  obtain ⟨hW1, hW2, hW3, hW4⟩ := hW
  obtain ⟨hH1, hH2, hH3, hH4⟩ := hH
  funext i
  obtain ⟨n, b, rfl⟩ : ∃ (n : Fin 500000) (b : Fin 16), i = ix2 n b := ⟨i 0, i 1, eq_ix2 i⟩
  refine (scatterAdd_rows_apply dW hW1 hW2 hW3 hW4 xW idx _ n b).trans ?_
  by_cases hb : b.val < 8
  · -- a column of the first half
    refine Eq.trans ?_ (concatenate_pair_apply_left (1 : Fin 2) (Host.scatterAdd dH xa idx g) (Host.scatterAdd dH xb idx ea) hcN (ix2 n b) rfl (ix2 n (⟨b.val, hb⟩ : Fin 8))
      (fun b' => match b' with | ⟨0, _⟩ => rfl | ⟨1, _⟩ => rfl)).symm
    refine Eq.trans ?_ (scatterAdd_rows_apply dH hH1 hH2 hH3 hH4 xa idx g n (⟨b.val, hb⟩ : Fin 8)).symm
    rw [hxW, hxa]
    refine congrArg (fun t => z + t) ?_
    refine Finset.sum_congr rfl fun e _ => ?_
    rw [concatenate_pair_apply_left (1 : Fin 2) g ea hcE (ix2 e b) rfl (ix2 e (⟨b.val, hb⟩ : Fin 8))
      (fun b' => match b' with | ⟨0, _⟩ => rfl | ⟨1, _⟩ => rfl)]
  · -- a column of the second half
    have hb16 : b.val < 16 := b.isLt
    have hb' : b.val - 8 < 8 := by omega
    refine Eq.trans ?_ (concatenate_pair_apply_right (1 : Fin 2) (Host.scatterAdd dH xa idx g) (Host.scatterAdd dH xb idx ea) hcN (ix2 n b) rfl rfl (ix2 n (⟨b.val - 8, hb'⟩ : Fin 8))
      (fun b' hne => match b', hne with | ⟨0, _⟩, _ => rfl | ⟨1, _⟩, hne => absurd rfl hne)
      (show (b.val - 8) + 8 = b.val by omega)).symm
    refine Eq.trans ?_ (scatterAdd_rows_apply dH hH1 hH2 hH3 hH4 xb idx ea n (⟨b.val - 8, hb'⟩ : Fin 8)).symm
    rw [hxW, hxb]
    refine congrArg (fun t => z + t) ?_
    refine Finset.sum_congr rfl fun e _ => ?_
    rw [concatenate_pair_apply_right (1 : Fin 2) g ea hcE (ix2 e b) rfl rfl (ix2 e (⟨b.val - 8, hb'⟩ : Fin 8))
      (fun b' hne => match b', hne with | ⟨0, _⟩, _ => rfl | ⟨1, _⟩, hne => absurd rfl hne)
      (show (b.val - 8) + 8 = b.val by omega)]

end Cert.ScatterRows
-- ==== Proof.HostBridge.lean ====
import proofs.«154105_j19894288515268_2_alg».proof.Proof.KHostDefs
import proofs.«154105_j19894288515268_2_alg».proof.Proof.Gen.ReferenceIdeal.Read
import proofs.«154105_j19894288515268_2_alg».proof.Proof.LibScatterRows
noncomputable section
namespace Cert.HostBridge
open Idealize.ShloMosaic Idealize.ShloMosaic.TcCoe Idealize.ShloMosaic.ValueIdx

/-! ## The index preparation and the gather: one term in both programs -/

/-- The destination column of the edge list is prepared alike (the reference's operand of its row sum). -/
theorem colIdx_eq (ei : (⟨Cert.KernelIdeal.S2x16000000, .i32⟩ : BufTy).Contents (Elt Ideal)) :
    Cert.KernelIdeal.HostSide.colIdx (F := Ideal) ei = Cert.ReferenceIdeal.Read.val_main_v13 (F := Ideal) ei := by
  unfold Cert.KernelIdeal.HostSide.colIdx Cert.ReferenceIdeal.Read.val_main_v13 Cert.ReferenceIdeal.Read.val_main_v3
    Cert.ReferenceIdeal.Read.val_main_v2
  rfl

/-- The same column, as the reference spells it for its count. -/
theorem colIdx_eq_count (ei : (⟨Cert.KernelIdeal.S2x16000000, .i32⟩ : BufTy).Contents (Elt Ideal)) :
    Cert.KernelIdeal.HostSide.colIdx (F := Ideal) ei = Cert.ReferenceIdeal.Read.val_main_v17 (F := Ideal) ei := by
  unfold Cert.KernelIdeal.HostSide.colIdx Cert.ReferenceIdeal.Read.val_main_v17 Cert.ReferenceIdeal.Read.val_main_v3
    Cert.ReferenceIdeal.Read.val_main_v2
  rfl

/-- The source column (a negative entry moved up by the number of nodes) is prepared alike. -/
theorem rowIdx_eq (ei : (⟨Cert.KernelIdeal.S2x16000000, .i32⟩ : BufTy).Contents (Elt Ideal)) :
    Cert.KernelIdeal.HostSide.rowIdx (F := Ideal) ei = Cert.ReferenceIdeal.Read.val_main_v9 (F := Ideal) ei := by
  unfold Cert.KernelIdeal.HostSide.rowIdx Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v1 Cert.ReferenceIdeal.Read.val_main_v0
    Cert.ReferenceIdeal.Read.val_main_c Cert.ReferenceIdeal.Read.val_main_c_0
  rfl

/-- The two programs' gather records have the same fields. -/
theorem gatherDims_eq :
    Cert.KernelIdeal.gather_S500000x8_S16000000x1_S16000000x8_1_0_n_n_0_1_18
      = Cert.ReferenceIdeal.gather_S500000x8_S16000000x1_S16000000x8_1_0_n_n_0_1_18 := rfl

/-- The source rows gathered per edge are the same. -/
theorem gathered_eq (x : (⟨Cert.KernelIdeal.S500000x8, .f32⟩ : BufTy).Contents (Elt Ideal))
    (ei : (⟨Cert.KernelIdeal.S2x16000000, .i32⟩ : BufTy).Contents (Elt Ideal)) :
    Cert.KernelIdeal.HostSide.gathered (F := Ideal) x ei = Cert.ReferenceIdeal.Read.val_main_v10 (F := Ideal) x ei := by
  unfold Cert.KernelIdeal.HostSide.gathered Cert.ReferenceIdeal.Read.val_main_v10
  rw [rowIdx_eq, gatherDims_eq]

/-! ## The sums -/

/-- Summing the joined rows once is summing the two halves and joining: the kernel program's summed messages are the reference's. -/
theorem summed_eq (x : (⟨Cert.KernelIdeal.S500000x8, .f32⟩ : BufTy).Contents (Elt Ideal))
    (ei : (⟨Cert.KernelIdeal.S2x16000000, .i32⟩ : BufTy).Contents (Elt Ideal))
    (ea : (⟨Cert.KernelIdeal.S16000000x8, .f32⟩ : BufTy).Contents (Elt Ideal)) :
    Cert.KernelIdeal.HostSide.summed (F := Ideal) x ei ea = Cert.ReferenceIdeal.Read.val_main_v14 (F := Ideal) x ei ea := by
  unfold Cert.KernelIdeal.HostSide.summed Cert.ReferenceIdeal.Read.val_main_v14 Cert.ReferenceIdeal.Read.val_main_v11
  rw [colIdx_eq, gathered_eq]
  exact (Cert.ScatterRows.scatterAdd_concat_cols
    Cert.ReferenceIdeal.scatter_S500000x16_S16000000x1_S16000000x16_1_0_0_1 ⟨rfl, rfl, rfl, rfl⟩
    Cert.KernelIdeal.scatter_S500000x8_S16000000x1_S16000000x8_1_0_0_1 ⟨rfl, rfl, rfl, rfl⟩
    Cert.ReferenceIdeal.Facts₀.concatenates_S16000000x8_S16000000x8_S16000000x16_d1
    Cert.KernelIdeal.Facts₀.concatenates_S500000x8_S500000x8_S500000x16_d1
    (FloatOps.ofBits (F := Ideal) .f32 0x00000000#32)
    (Cert.ReferenceIdeal.Read.val_main_v12 (F := Ideal))
    (broadcastInDim Cert.KernelIdeal.S500000x8 ![] Cert.KernelIdeal.Facts₀.bcast_S_S500000x8 (constant Cert.KernelIdeal.S_ .f32 0x00000000#32))
    (broadcastInDim Cert.KernelIdeal.S500000x8 ![] Cert.KernelIdeal.Facts₀.bcast_S_S500000x8 (constant Cert.KernelIdeal.S_ .f32 0x00000000#32))
    (fun _ => rfl) (fun _ => rfl) (fun _ => rfl)
    (Cert.ReferenceIdeal.Read.val_main_v13 (F := Ideal) ei)
    (Cert.ReferenceIdeal.Read.val_main_v10 (F := Ideal) x ei) ea).symm

/-- The two programs count the arrivals alike. -/
theorem count_eq (ei : (⟨Cert.KernelIdeal.S2x16000000, .i32⟩ : BufTy).Contents (Elt Ideal)) :
    Cert.KernelIdeal.HostSide.count (F := Ideal) ei = Cert.ReferenceIdeal.Read.val_main_v18 (F := Ideal) ei := by
  unfold Cert.KernelIdeal.HostSide.count Cert.ReferenceIdeal.Read.val_main_v18 Cert.ReferenceIdeal.Read.val_main_v16
    Cert.ReferenceIdeal.Read.val_main_v15 Cert.ReferenceIdeal.Read.val_main_cst_2 Cert.ReferenceIdeal.Read.val_main_cst_1
  rw [colIdx_eq_count]
  rfl

end Cert.HostBridge
-- ==== Proof.KCore.lean ====
/-
  The kernel's closed form, over the arrays the region finds, is the node update of the program's arguments.

  The region finds x, W1 and W2 as launched; the summed messages, the one-column arrival count, the bias row
  b1 + u 0 · (row 24 of W1) and b2 as a row, as the host operations before it leave them. The summed messages and the count
  are the reference's; the column, the bias row and the row of b2 read at an index are what the two spellings of the node
  update ask of them to agree.
-/
import proofs.«154105_j19894288515268_2_alg».proof.Proof.KHost
import proofs.«154105_j19894288515268_2_alg».proof.Proof.KHostRead
import proofs.«154105_j19894288515268_2_alg».proof.Proof.HostBridge
import proofs.«154105_j19894288515268_2_alg».proof.Proof.Spec
noncomputable section
namespace Cert.KernelIdeal.HostSide
open Cert.KernelIdeal Cert.KernelIdeal.Gen Idealize.ShloMosaic Idealize.ShloMosaic.TcCoe Idealize.SL.Sem Idealize.ShloMosaic.ValueIdx
open Cert.NodeUpdate (ANx8 ANx16 ANx1 A1x25 A25x25 A25x8 A1x8 kernelOut core)
variable (m : (ℓ : Loc nD τ sig) → Buf (Elt Ideal) ℓ)

/-- The kernel's closed form over the arrays the region finds is the node update of the program's arguments. -/
theorem kernelOut_V_eq_core (c : Dev nD) :
    kernelOut (V m c main_arg0 : ANx8) (V m c main_v21 : ANx16) (V m c main_v22 : ANx1) (V m c main_v29 : A1x25)
        (V m c main_arg5 : A25x25) (V m c main_arg7 : A25x8) (V m c main_v30 : A1x8)
      = core (m ((c : Thread nD τ).loc main_arg0))
          (Cert.ReferenceIdeal.Read.val_main_v14 (F := Ideal) (m ((c : Thread nD τ).loc main_arg0)) (m ((c : Thread nD τ).loc main_arg1)) (m ((c : Thread nD τ).loc main_arg2)))
          (Cert.ReferenceIdeal.Read.val_main_v18 (F := Ideal) (m ((c : Thread nD τ).loc main_arg1)))
          (m ((c : Thread nD τ).loc main_arg3)) (m ((c : Thread nD τ).loc main_arg5)) (m ((c : Thread nD τ).loc main_arg6))
          (m ((c : Thread nD τ).loc main_arg7)) (m ((c : Thread nD τ).loc main_arg8)) := by
  have e0 : (V m c main_arg0 : ANx8) = m ((c : Thread nD τ).loc main_arg0) := V_main_arg0 m c
  have e5 : (V m c main_arg5 : A25x25) = m ((c : Thread nD τ).loc main_arg5) := V_main_arg5 m c
  have e7 : (V m c main_arg7 : A25x8) = m ((c : Thread nD τ).loc main_arg7) := V_main_arg7 m c
  have e21 : (V m c main_v21 : ANx16)
      = Cert.ReferenceIdeal.Read.val_main_v14 (F := Ideal) (m ((c : Thread nD τ).loc main_arg0))
          (m ((c : Thread nD τ).loc main_arg1)) (m ((c : Thread nD τ).loc main_arg2)) :=
    (V_v21 m c).trans (Cert.HostBridge.summed_eq _ _ _)
  have e22 : (V m c main_v22 : ANx1) = countCol (F := Ideal) (m ((c : Thread nD τ).loc main_arg1)) := V_v22 m c
  have e29 : (V m c main_v29 : A1x25)
      = biasRow (F := Ideal) (m ((c : Thread nD τ).loc main_arg3)) (m ((c : Thread nD τ).loc main_arg5))
          (m ((c : Thread nD τ).loc main_arg6)) := V_v29 m c
  have e30 : (V m c main_v30 : A1x8) = b2Row (F := Ideal) (m ((c : Thread nD τ).loc main_arg8)) := V_v30 m c
  refine (congr (congr (congr (congr (congr (congr (congrArg kernelOut e0) e21) e22) e29) e5) e7) e30).trans ?_
  exact Cert.NodeUpdate.kernelOut_eq_core
    (m ((c : Thread nD τ).loc main_arg0))
    (Cert.ReferenceIdeal.Read.val_main_v14 (F := Ideal) (m ((c : Thread nD τ).loc main_arg0))
      (m ((c : Thread nD τ).loc main_arg1)) (m ((c : Thread nD τ).loc main_arg2)))
    (Cert.ReferenceIdeal.Read.val_main_v18 (F := Ideal) (m ((c : Thread nD τ).loc main_arg1)))
    (m ((c : Thread nD τ).loc main_arg3)) (m ((c : Thread nD τ).loc main_arg5)) (m ((c : Thread nD τ).loc main_arg6))
    (m ((c : Thread nD τ).loc main_arg7)) (m ((c : Thread nD τ).loc main_arg8))
    (countCol (F := Ideal) (m ((c : Thread nD τ).loc main_arg1)))
    (biasRow (F := Ideal) (m ((c : Thread nD τ).loc main_arg3)) (m ((c : Thread nD τ).loc main_arg5))
      (m ((c : Thread nD τ).loc main_arg6)))
    (b2Row (F := Ideal) (m ((c : Thread nD τ).loc main_arg8)))
    (fun n => (countCol_apply (m ((c : Thread nD τ).loc main_arg1)) n).trans
      (congrFun (Cert.HostBridge.count_eq (m ((c : Thread nD τ).loc main_arg1))) (ix1 n)))
    (fun k => biasRow_apply (m ((c : Thread nD τ).loc main_arg3)) (m ((c : Thread nD τ).loc main_arg5))
      (m ((c : Thread nD τ).loc main_arg6)) k)
    (fun o => b2Row_apply (m ((c : Thread nD τ).loc main_arg8)) o)

end Cert.KernelIdeal.HostSide
end
-- ==== Proof.RefCore.lean ====
/-
  The reference program's result, index by index, is the node update of the specification.

  The reference joins, for every node n, the row [ x (n, 0..7) | mean (n, 0..15) | u 0 ] of 25 features, where
  mean (n, b) = summed (n, b) / max (cnt n) 1; applies the first linear layer (a sum over the 25 features, plus b1),
  takes the maximum with 0, and applies the second linear layer (a sum over the 25 hidden units, plus b2). Read at an
  index (n, o) this is the specification's `coreAt` of the same arrays, with the summed messages and the arrival counts
  kept as the two arrays the reference computes them into. Only the joined row needs a case split: a column below 8
  lies in x, one from 8 to 23 in the mean (8 less), column 24 in the broadcast u.
-/
import proofs.«154105_j19894288515268_2_alg».proof.Proof.Gen.ReferenceIdeal.Read
import proofs.«154105_j19894288515268_2_alg».proof.Proof.Spec
noncomputable section
namespace Cert.ReferenceIdeal.RefValue
open Cert.ReferenceIdeal Cert.ReferenceIdeal.Gen Idealize.ShloMosaic Idealize.ShloMosaic.TcCoe Idealize.ShloMosaic.ValueIdx

/-- The divisor of the mean at node n, whatever the feature column: the arrival count, taken as at least one. -/
theorem v22_apply (x1 : (⟨S2x16000000, .i32⟩ : BufTy).Contents (Elt Ideal)) (n : Fin 500000) (b : Fin 16) :
    Read.val_main_v22 (F := Ideal) x1 (ix2 n b)
      = max (Read.val_main_v18 (F := Ideal) x1 (ix1 n)) Cert.NodeUpdate.one := by
  have e : Read.idx_main_v21 (Read.idx_main_v22 (ix2 n b)) = ix1 n :=
    funext fun a => by match a with | ⟨0, _⟩ => rfl
  rw [Read.val_main_v22_apply, Read.val_main_v21_apply, Read.val_main_v20_apply, Read.val_main_v19_apply,
    Read.val_main_cst_3_apply, e]
  rfl

/-- The global feature, broadcast down the nodes, is the one entry of u. -/
theorem v25_apply (x3 : (⟨S1, .f32⟩ : BufTy).Contents (Elt Ideal)) (n : Fin 500000) :
    Read.val_main_v25 (F := Ideal) x3 (ix2 n (0 : Fin 1)) = x3 (ix1 0) := by
  have e : Read.idx_main_v24 (Read.idx_main_v25 (ix2 n (0 : Fin 1))) = ix1 0 :=
    funext fun a => by match a with | ⟨0, _⟩ => rfl
  rw [Read.val_main_v25_apply, Read.val_main_v24_apply, e]

/-- Row n of the joined feature array [x | mean | u], column c, is the c-th input feature of node n. -/
theorem v26_apply
    (x0 : (⟨S500000x8, .f32⟩ : BufTy).Contents (Elt Ideal)) (x1 : (⟨S2x16000000, .i32⟩ : BufTy).Contents (Elt Ideal))
    (x2 : (⟨S16000000x8, .f32⟩ : BufTy).Contents (Elt Ideal)) (x3 : (⟨S1, .f32⟩ : BufTy).Contents (Elt Ideal))
    (n : Fin 500000) (c : Fin 25) :
    Read.val_main_v26 (F := Ideal) x0 x1 x2 x3 (ix2 n c)
      = Cert.NodeUpdate.feat x0 (Read.val_main_v14 (F := Ideal) x0 x1 x2) (Read.val_main_v18 (F := Ideal) x1) x3 n c := by
  unfold Cert.NodeUpdate.feat Read.val_main_v26
  by_cases h8 : c.val < 8
  · rw [dif_pos h8]
    exact concatenate_apply_piece (t := S500000x25) 1 _ _ (ix2 n c) 0 (by show (0 : Nat) < 3; omega) S500000x8 x0 rfl rfl 0 rfl
      (ix2 n (⟨c.val, h8⟩ : Fin 8))
      (fun b hb => by match b with | ⟨0, _⟩ => rfl | ⟨1, _⟩ => exact absurd rfl hb)
      (by show 0 + c.val = c.val; omega)
  · rw [dif_neg h8]
    by_cases h24 : c.val < 24
    · rw [dif_pos h24]
      refine (concatenate_apply_piece (t := S500000x25) 1 _ _ (ix2 n c) 1 (by show (1 : Nat) < 3; omega) S500000x16
        (Read.val_main_v23 (F := Ideal) x0 x1 x2) rfl rfl 8 rfl
        (ix2 n (⟨c.val - 8, by omega⟩ : Fin 16))
        (fun b hb => by match b with | ⟨0, _⟩ => rfl | ⟨1, _⟩ => exact absurd rfl hb)
        (by show 8 + (c.val - 8) = c.val; omega)).trans ?_
      rw [Read.val_main_v23_apply, v22_apply, Ideal.hostDivf_def]
      rfl
    · rw [dif_neg h24]
      have hc : c.val = 24 := by have := c.isLt; omega
      refine (concatenate_apply_piece (t := S500000x25) 1 _ _ (ix2 n c) 2 (by show (2 : Nat) < 3; omega) S500000x1
        (Read.val_main_v25 (F := Ideal) x3) rfl rfl 24 rfl
        (ix2 n (0 : Fin 1))
        (fun b hb => by match b with | ⟨0, _⟩ => rfl | ⟨1, _⟩ => exact absurd rfl hb)
        (by show 24 + 0 = c.val; omega)).trans ?_
      exact v25_apply x3 n

/-- The first linear layer of the reference at node n, hidden unit k. -/
theorem v30_apply
    (x0 : (⟨S500000x8, .f32⟩ : BufTy).Contents (Elt Ideal)) (x1 : (⟨S2x16000000, .i32⟩ : BufTy).Contents (Elt Ideal))
    (x2 : (⟨S16000000x8, .f32⟩ : BufTy).Contents (Elt Ideal)) (x3 : (⟨S1, .f32⟩ : BufTy).Contents (Elt Ideal))
    (x5 : (⟨S25x25, .f32⟩ : BufTy).Contents (Elt Ideal)) (x6 : (⟨S25, .f32⟩ : BufTy).Contents (Elt Ideal))
    (n : Fin 500000) (k : Fin 25) :
    Read.val_main_v30 (F := Ideal) x0 x1 x2 x3 x5 x6 (ix2 n k)
      = Cert.NodeUpdate.hidden x0 (Read.val_main_v14 (F := Ideal) x0 x1 x2) (Read.val_main_v18 (F := Ideal) x1) x3 x5 x6 n k := by
  unfold Cert.NodeUpdate.hidden
  rw [Read.val_main_v30_apply, Read.val_main_v27_apply, Read.val_main_v29_apply, Read.val_main_v28_apply, Ideal.addf_def]
  have eb : Read.idx_main_v28 (Read.idx_main_v29 (ix2 n k)) = ix1 k :=
    funext fun a => by match a with | ⟨0, _⟩ => rfl
  rw [eb]
  refine congrArg (· + x6 (ix1 k)) ?_
  refine Finset.sum_congr rfl fun c _ => ?_
  have el : Read.lidx_main_v27 (ix2 n k) c = ix2 n c :=
    funext fun a => by match a with | ⟨0, _⟩ => rfl | ⟨1, _⟩ => rfl
  have er : Read.ridx_main_v27 (ix2 n k) c = ix2 c k :=
    funext fun a => by match a with | ⟨0, _⟩ => rfl | ⟨1, _⟩ => rfl
  rw [el, er, v26_apply]

/-- The rectified first layer of the reference at node n, hidden unit k. -/
theorem v31_apply
    (x0 : (⟨S500000x8, .f32⟩ : BufTy).Contents (Elt Ideal)) (x1 : (⟨S2x16000000, .i32⟩ : BufTy).Contents (Elt Ideal))
    (x2 : (⟨S16000000x8, .f32⟩ : BufTy).Contents (Elt Ideal)) (x3 : (⟨S1, .f32⟩ : BufTy).Contents (Elt Ideal))
    (x5 : (⟨S25x25, .f32⟩ : BufTy).Contents (Elt Ideal)) (x6 : (⟨S25, .f32⟩ : BufTy).Contents (Elt Ideal))
    (n : Fin 500000) (k : Fin 25) :
    Read.val_main_v31 (F := Ideal) x0 x1 x2 x3 x5 x6 (ix2 n k)
      = max (Cert.NodeUpdate.hidden x0 (Read.val_main_v14 (F := Ideal) x0 x1 x2) (Read.val_main_v18 (F := Ideal) x1) x3 x5 x6 n k)
          Cert.NodeUpdate.zero := by
  rw [Read.val_main_v31_apply, v30_apply, Read.val_main_call0_v0_apply, Read.val_main_call0_cst_apply, Ideal.maximumf_def]
  rfl

/-- The reference's result is the node update of its arguments, of the summed messages and of the arrival counts. -/
theorem result_eq_core
    (x0 : (⟨S500000x8, .f32⟩ : BufTy).Contents (Elt Ideal)) (x1 : (⟨S2x16000000, .i32⟩ : BufTy).Contents (Elt Ideal))
    (x2 : (⟨S16000000x8, .f32⟩ : BufTy).Contents (Elt Ideal)) (x3 : (⟨S1, .f32⟩ : BufTy).Contents (Elt Ideal))
    (x5 : (⟨S25x25, .f32⟩ : BufTy).Contents (Elt Ideal)) (x6 : (⟨S25, .f32⟩ : BufTy).Contents (Elt Ideal))
    (x7 : (⟨S25x8, .f32⟩ : BufTy).Contents (Elt Ideal)) (x8 : (⟨S8, .f32⟩ : BufTy).Contents (Elt Ideal)) :
    Read.val_main_v35 (F := Ideal) x0 x1 x2 x3 x5 x6 x7 x8
      = Cert.NodeUpdate.core x0 (Read.val_main_v14 (F := Ideal) x0 x1 x2) (Read.val_main_v18 (F := Ideal) x1) x3 x5 x6 x7 x8 := by
  funext i
  obtain ⟨n, o, rfl⟩ : ∃ (n : Fin 500000) (o : Fin 8), i = ix2 n o := ⟨i 0, i 1, eq_ix2 i⟩
  show _ = Cert.NodeUpdate.coreAt x0 (Read.val_main_v14 (F := Ideal) x0 x1 x2) (Read.val_main_v18 (F := Ideal) x1) x3 x5 x6 x7 x8 n o
  unfold Cert.NodeUpdate.coreAt
  rw [Read.val_main_v35_apply, Read.val_main_v32_apply, Read.val_main_v34_apply, Read.val_main_v33_apply, Ideal.addf_def]
  have eb : Read.idx_main_v33 (Read.idx_main_v34 (ix2 n o)) = ix1 o :=
    funext fun a => by match a with | ⟨0, _⟩ => rfl
  rw [eb]
  refine congrArg (· + x8 (ix1 o)) ?_
  refine Finset.sum_congr rfl fun k _ => ?_
  have el : Read.lidx_main_v32 (ix2 n o) k = ix2 n k :=
    funext fun a => by match a with | ⟨0, _⟩ => rfl | ⟨1, _⟩ => rfl
  have er : Read.ridx_main_v32 (ix2 n o) k = ix2 k o :=
    funext fun a => by match a with | ⟨0, _⟩ => rfl | ⟨1, _⟩ => rfl
  rw [el, er, v31_apply]

end Cert.ReferenceIdeal.RefValue
end
-- ==== Proof.lean ====
/-
  A message-passing layer's node update, as a blocked TPU kernel and as plain array code, compute the same array on the
  extended reals.

  Both programs take node features x [500000, 8], an edge list [2, 16000000] (sources, destinations), edge attributes
  [16000000, 8], a global feature u [1] and the weights of a two-layer perceptron (W1 [25, 25], b1 [25], W2 [25, 8], b2 [8]).
  For each node n they form the 25 features  [ x n | mean over the edges arriving at n of (x (source) | edge attribute) | u ],
  the mean being the sum over the number of arrivals taken as at least one, and return  max (feat · W1 + b1) 0 · W2 + b2.

  The two programs differ in three places, none of which changes the value on the extended reals:
  * the reference sums the 16-column rows (x (source) | edge attribute) over the destinations in ONE accumulating scatter;
    the kernel's program sums the two 8-column halves separately and lays the results side by side — column by column
    the same sums (`Cert.ScatterRows.scatterAdd_concat_cols`, `Cert.HostBridge.summed_eq`);
  * the reference multiplies the 25 features by W1 at once and adds b1; the kernel multiplies the node's own 8 features
    and the 16 mean features separately and adds one bias row b1 + u · (row 24 of W1) prepared on the host — a sum over
    25 indices split as 8 + 16 + 1 and re-associated (`Cert.NodeUpdate.kernelAt_eq_coreAt`; + on the extended reals is
    associative and commutative also at the infinities, so the inputs' finiteness is never used);
  * the kernel works on 100 blocks of 5000 nodes and rounds to bf16 on the way into its products, which on the extended
    reals is the identity; its blocks tile the output (`Cert.KernelIdeal.Blocks.final`, `Cert.KernelIdeal.Blocks.run_named`).
  The kernel's run with its output array named is the generated blockwise value leg; the reference's run and its
  operations read at an index are the generated read-back modules. `preserves` has nothing to show: the idealized kernel
  is the kernel's own text.
-/
import proofs.«154105_j19894288515268_2_alg».proof.Defs
import proofs.«154105_j19894288515268_2_alg».proof.Proof.Gen.Kernel
import proofs.«154105_j19894288515268_2_alg».proof.Proof.Gen.Kernel.Skeleton
import proofs.«154105_j19894288515268_2_alg».proof.Proof.Gen.Kernel.Launch
import proofs.«154105_j19894288515268_2_alg».proof.Proof.Gen.Kernel.Points
import proofs.«154105_j19894288515268_2_alg».proof.Proof.Gen.Kernel.Frame
import proofs.«154105_j19894288515268_2_alg».proof.Proof.Gen.KernelIdeal
import proofs.«154105_j19894288515268_2_alg».proof.Proof.Gen.KernelIdeal.Skeleton
import proofs.«154105_j19894288515268_2_alg».proof.Proof.Gen.KernelIdeal.Launch
import proofs.«154105_j19894288515268_2_alg».proof.Proof.Gen.KernelIdeal.Points
import proofs.«154105_j19894288515268_2_alg».proof.Proof.Gen.KernelIdeal.Frame
import proofs.«154105_j19894288515268_2_alg».proof.Proof.Gen.ReferenceIdeal
import proofs.«154105_j19894288515268_2_alg».proof.Proof.Gen.KernelIdeal.Value
import proofs.«154105_j19894288515268_2_alg».proof.Proof.Gen.ReferenceIdeal.Run
import proofs.«154105_j19894288515268_2_alg».proof.Proof.Gen.ReferenceIdeal.Read
import proofs.«154105_j19894288515268_2_alg».proof.Proof.Gen.Pre_finite_inputs
import proofs.«154105_j19894288515268_2_alg».proof.Proof.KBlocks
import proofs.«154105_j19894288515268_2_alg».proof.Proof.KCore
import proofs.«154105_j19894288515268_2_alg».proof.Proof.RefCore
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's output array and the reference's result are one function of arguments that agree:
    the node update of the arguments, of the summed messages and of the arrival counts. -/
theorem algebraic : Cert.algebraic_KernelIdeal_ReferenceIdeal := by
  intro m ρ m' ρ' _ hagree
  refine ⟨_, Cert.KernelIdeal.Blocks.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, _, h5, h6, h7, h8⟩ := hagree c
  rw [Cert.ReferenceIdeal.Read.val_main_v35_eq, Cert.ReferenceIdeal.RefValue.result_eq_core, h0, h1, h2, h3, h5, h6, h7, h8]
  exact (Cert.KernelIdeal.HostSide.kernelOut_V_eq_core m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
